-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S10000x128 : Shape := ⟨2, ![10000, 128]⟩
abbrev S10000x1 : Shape := ⟨2, ![10000, 1]⟩
abbrev S1700000x128 : Shape := ⟨2, ![1700000, 128]⟩
abbrev S1x128 : Shape := ⟨2, ![1, 128]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩

abbrev nBuf : Space → Nat
  | .hbm => 105
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x128, .bf16⟩
  | .hbm, ⟨34, _⟩ => ⟨S128x128, .bf16⟩
  | .hbm, ⟨35, _⟩ => ⟨S100000x1, .f32⟩
  | .hbm, ⟨36, _⟩ => ⟨S100000x128, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000x128, .f32⟩
  | .hbm, ⟨46, _⟩ => ⟨S_, .f32⟩
  | .hbm, ⟨47, _⟩ => ⟨S100000x128, .f32⟩
  | .hbm, ⟨48, _⟩ => ⟨S1700000x1, .i32⟩
  | .hbm, ⟨49, _⟩ => ⟨S100000x128, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x128, .bf16⟩
  | .hbm, ⟨60, _⟩ => ⟨S128x128, .bf16⟩
  | .hbm, ⟨61, _⟩ => ⟨S100000x1, .f32⟩
  | .hbm, ⟨62, _⟩ => ⟨S100000x128, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S64x128, .f32⟩
  | .hbm, ⟨87, _⟩ => ⟨S100000x1, .i32⟩
  | .hbm, ⟨88, _⟩ => ⟨S64x128, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S64, .f32⟩
  | .hbm, ⟨93, _⟩ => ⟨S100000x1, .i32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64x1, .f32⟩
  | .hbm, ⟨99, _⟩ => ⟨S64x128, .f32⟩
  | .hbm, ⟨100, _⟩ => ⟨S64x128, .f32⟩
  | .hbm, ⟨101, _⟩ => ⟨S64x64, .f32⟩
  | .hbm, ⟨102, _⟩ => ⟨S1x64, .f32⟩
  | .hbm, ⟨103, _⟩ => ⟨S64x64, .f32⟩
  | .hbm, ⟨104, _⟩ => ⟨S64x64, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .bf16⟩
  | .local _ .vmem, ⟨8, _⟩ => ⟨S10000x128, .bf16⟩
  | .local _ .vmem, ⟨9, _⟩ => ⟨S128x128, .bf16⟩
  | .local _ .vmem, ⟨10, _⟩ => ⟨S10000x1, .f32⟩
  | .local _ .vmem, ⟨11, _⟩ => ⟨S10000x1, .f32⟩
  | .local _ .vmem, ⟨12, _⟩ => ⟨S10000x128, .f32⟩
  | .local _ .vmem, ⟨13, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call2_cst : Ref sig .tc := ⟨.hbm, 82, rfl⟩
abbrev main_call2_v0 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_10 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  scatter_S100000_S1700000x1_S1700000_n_0_0_1_wf : ScatterDims.WF S100000 S1700000x1 S1700000 [] [0] [0] 1
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_v17) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64x1 : Shape := ⟨2, ![64, 1]⟩
abbrev S64x64 : Shape := ⟨2, ![64, 64]⟩
abbrev S1x64 : Shape := ⟨2, ![1, 64]⟩

abbrev nBuf : Space → Nat
  | .hbm => 154
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S100000x128, .f32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S_, .f32⟩
  | 86 => ⟨S100000, .f32⟩
  | 87 => ⟨S100000, .f32⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x1, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S_, .f32⟩
  | 7 => ⟨S64x128, .f32⟩
  | 8 => ⟨S100000x1, .i32⟩
  | 9 => ⟨S64x128, .f32⟩
  | 10 => ⟨S_, .f32⟩
  | 11 => ⟨S100000, .f32⟩
  | 12 => ⟨S_, .f32⟩
  | 13 => ⟨S64, .f32⟩
  | 14 => ⟨S100000x1, .i32⟩
  | 15 => ⟨S64, .f32⟩
  | 16 => ⟨S_, .f32⟩
  | 17 => ⟨S64, .f32⟩
  | 18 => ⟨S64, .f32⟩
  | 19 => ⟨S64x1, .f32⟩
  | 20 => ⟨S64x128, .f32⟩
  | 21 => ⟨S64x128, .f32⟩
  | 22 => ⟨S64x64, .f32⟩
  | 23 => ⟨S1x64, .f32⟩
  | 24 => ⟨S64x64, .f32⟩
  | 25 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v60 : Ref sig .tc := ⟨.hbm, 92, rfl⟩
abbrev main_c_15 : Ref sig .tc := ⟨.hbm, 93, rfl⟩
abbrev main_v61 : Ref sig .tc := ⟨.hbm, 94, rfl⟩
abbrev main_v62 : Ref sig .tc := ⟨.hbm, 95, rfl⟩
abbrev main_c_16 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_17 : Ref sig .tc := ⟨.hbm, 102, rfl⟩
abbrev main_v68 : Ref sig .tc := ⟨.hbm, 103, rfl⟩
abbrev main_v69 : Ref sig .tc := ⟨.hbm, 104, rfl⟩
abbrev main_c_18 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_19 : Ref sig .tc := ⟨.hbm, 112, rfl⟩
abbrev main_v76 : Ref sig .tc := ⟨.hbm, 113, rfl⟩
abbrev main_v77 : Ref sig .tc := ⟨.hbm, 114, rfl⟩
abbrev main_c_20 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_21 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_call3_cst : Ref sig .tc := ⟨.hbm, 131, rfl⟩
abbrev main_call3_v0 : Ref sig .tc := ⟨.hbm, 132, rfl⟩
abbrev main_v92 : Ref sig .tc := ⟨.hbm, 133, rfl⟩
abbrev main_cst_22 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_23 : Ref sig .tc := ⟨.hbm, 138, rfl⟩
abbrev main_v96 : Ref sig .tc := ⟨.hbm, 139, rfl⟩
abbrev main_cst_24 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_25 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.KernelRun.lean ====
/-
  The program's run with its result named.

  Every weakly fair execution of the program ends, nothing faulting, with the result buffer holding what the chain
  of host stretches and the two tiled matrix products leave there (the last of the boundary contents, `W11`), and
  with the argument arrays as they were at the start. The launch side is the one the frame of this program goes
  through; what differs is only which buffers of the final state are read back: here also the result's.
-/
import proofs.«155046_j60842506715384_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault, the result buffer at the last boundary's contents, the arguments unchanged. -/
theorem run_result : θ_run defs (onTc (τ := τ) (main (F := F))) ⟨m, fun _ => 0, ρ⟩ (fun r => ∀ c : Dev nD,
      r.2.mem ((c.tc : Thread nD τ).loc main_v74) = W11 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v74 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Result

end
-- ==== Proof.Spec.lean ====
/-
  The pieces both programs are made of, as whole-array functions on the extended reals.

  A graph with N = 100000 nodes and E = 1700000 directed edges (the given 1600000 and one self-loop per node) is
  held as two vectors of index words, the senders and the receivers. A node's degree counts the edges it
  receives; its normalisation factor is the reciprocal square root of the degree where the degree is positive and 0
  elsewhere. One layer of the network maps node features X (N x 128) to max(A_norm (X W) + b, 0), where A_norm
  scales the message along an edge by the factors of its two ends.

  One program scales row i of X W by the factor of node i (a tiled matrix product with a fused scaling, read
  here as one N x 128 function), moves the scaled rows along the edges, adds up what arrives at a node, and
  scales the sum by the receiver's factor. The other moves the rows of X W along the edges, scales each by the
  product of the two ends' factors, and adds up. After two layers both average the node features per graph
  and apply one more affine map; that part is spelt the same way in both.
-/
import proofs.«155046_j60842506715384_2_alg».proof.KernelIdeal
import proofs.«155046_j60842506715384_2_alg».proof.ReferenceIdeal
import Idealize.ShloMosaic.Lib.ValueIdx
import Idealize.ShloMosaic.PureOps.Ideal

noncomputable section

namespace Cert.Gcn

open Idealize.ShloMosaic Idealize.ShloMosaic.ValueIdx

/-- Arrays of single-precision, half-width and 32-bit integer entries, read on the extended reals. -/
abbrev F32 (s : Shape) := (⟨s, .f32⟩ : BufTy).Contents (Elt Ideal)
abbrev B16 (s : Shape) := (⟨s, .bf16⟩ : BufTy).Contents (Elt Ideal)
abbrev I32 (s : Shape) := (⟨s, .i32⟩ : BufTy).Contents (Elt Ideal)

section KernelSide

open Cert.KernelIdeal Cert.KernelIdeal.Facts₀ Cert.KernelIdeal.Facts

variable [Cert.KernelIdeal.Facts]

/-- The senders: row 0 of the edge list, then one self-loop per node. -/
def Ksrc (ei : I32 S2x1600000) : I32 S1700000 :=
  concatenate S1700000 0 [⟨S1600000, shapeCast _ (extractStridedSlice S1x1600000 ![0, 0] ei slices_S2x1600000_S1x1600000_0_0) shapeCasts_S1x1600000_S1600000⟩, ⟨S100000, iotaInDim S100000 32 0⟩] concatenates_S1600000_S100000_S1700000_d0

/-- The receivers: row 1 of the edge list, then one self-loop per node. -/
def Kdst (ei : I32 S2x1600000) : I32 S1700000 :=
  concatenate S1700000 0 [⟨S1600000, shapeCast _ (extractStridedSlice S1x1600000 ![1, 0] ei slices_S2x1600000_S1x1600000_1_0) shapeCasts_S1x1600000_S1600000⟩, ⟨S100000, iotaInDim S100000 32 0⟩] concatenates_S1600000_S100000_S1700000_d0

/-- A vector of index words as a column. -/
def Kcol (i : I32 S1700000) : I32 S1700000x1 := broadcastInDim S1700000x1 ![0] bcast_S1700000_S1700000x1_0 i

/-- A negative index word counted from the end. -/
def Kwrap (i : I32 S1700000) : I32 S1700000 :=
  select (cmpi .slt i (broadcastInDim S1700000 ![] bcast_S_S1700000 (constantI S_ 32 0#32))) (addi i (broadcastInDim S1700000 ![] bcast_S_S1700000 (constantI S_ 32 100000#32))) i

/-- The degree: the number of edges a node receives. -/
def Kdeg (d : I32 S1700000) : F32 S100000 :=
  Host.scatterAdd (F := Ideal) scatter_S100000_S1700000x1_S1700000_n_0_0_1 (broadcastInDim S100000 ![] bcast_S_S100000 (constant (F := Ideal) S_ .f32 0x00000000#32)) (Kcol d) (broadcastInDim S1700000 ![] bcast_S_S1700000 (constant (F := Ideal) S_ .f32 0x3F800000#32))

/-- The normalisation factor: 1/sqrt(max(degree, tiny)) where the degree is positive, 0 elsewhere. -/
def Kdinv (d : I32 S1700000) : F32 S100000 :=
  select (cmpf .ogt (Kdeg d) (broadcastInDim S100000 ![] bcast_S_S100000 (constant (F := Ideal) S_ .f32 0x00000000#32))) (Host.rsqrt (F := Ideal) (maximumf (Kdeg d) (broadcastInDim S100000 ![] bcast_S_S100000 (constant (F := Ideal) S_ .f32 0x2B8CBCCC#32)))) (broadcastInDim S100000 ![] bcast_S_S100000 (constant (F := Ideal) S_ .f32 0x00000000#32))

/-- Entry (p, q) of the scaled product: the factor of node p times row p of X against column q of W. -/
def scaledAt (X : B16 S100000x128) (W : B16 S128x128) (dc : F32 S100000x1) (p : Fin 100000) (q : Fin 128) : EReal :=
  dc (ix2 p (0 : Fin 1)) * ∑ k : Fin 128, X (ix2 p k) * W (ix2 k q)

/-- The scaled product as one array: what the tiled matrix product with the fused scaling leaves. -/
def Kscaled (X : B16 S100000x128) (W : B16 S128x128) (dc : F32 S100000x1) : F32 S100000x128 :=
  fun j => scaledAt X W dc ⟨(j 0).val, (j 0).isLt⟩ ⟨(j 1).val, (j 1).isLt⟩

theorem Kscaled_apply (X : B16 S100000x128) (W : B16 S128x128) (dc : F32 S100000x1) (p : Fin 100000) (q : Fin 128) :
    Kscaled X W dc (ix2 p q) = scaledAt X W dc p q := rfl

/-- The rest of a layer after the scaled product Z: rows of Z moved along the edges, summed at the receivers,
    scaled by the receiver's factor, the bias added, negatives cut off. -/
def Kpost (s d : I32 S1700000) (dv : F32 S100000) (Z : F32 S100000x128) (b : F32 S128) : F32 S100000x128 :=
  maximumf (addf (mulf (broadcastInDim S100000x128 ![0, 1] bcast_S100000x1_S100000x128_0_1 (broadcastInDim S100000x1 ![0] bcast_S100000_S100000x1_0 dv)) (Host.scatterAdd (F := Ideal) scatter_S100000x128_S1700000x1_S1700000x128_1_0_0_1 (broadcastInDim S100000x128 ![] bcast_S_S100000x128 (constant (F := Ideal) S_ .f32 0x00000000#32)) (Kcol d) (Host.gather gather_S100000x128_S1700000x1_S1700000x128_1_0_n_n_0_1_1128 Z (Kcol (Kwrap s))))) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

/-- After the two layers: the mean of the node features over each graph of the batch, then an affine map. -/
def Ktail (h : F32 S100000x128) (bt : I32 S100000) (Wl : F32 S128x64) (bl : F32 S64) : F32 S64x64 :=
  addf (Host.dotGeneral (F := Ideal) (φ₁ := .f32) (φ₂ := .f32) dot_S64x128_S128x64_S64x64_1_0_0_1_n_n none (Host.divf (F := Ideal) (Host.scatterAdd (F := Ideal) scatter_S64x128_S100000x1_S100000x128_1_0_0_1 (broadcastInDim S64x128 ![] bcast_S_S64x128 (constant (F := Ideal) S_ .f32 0x00000000#32)) (broadcastInDim S100000x1 ![0] bcast_S100000_S100000x1_0 bt) h) (broadcastInDim S64x128 ![0, 1] bcast_S64x1_S64x128_0_1 (broadcastInDim S64x1 ![0] bcast_S64_S64x1_0 (maximumf (Host.scatterAdd (F := Ideal) scatter_S64_S100000x1_S100000_n_0_0_1 (broadcastInDim S64 ![] bcast_S_S64 (constant (F := Ideal) S_ .f32 0x00000000#32)) (broadcastInDim S100000x1 ![0] bcast_S100000_S100000x1_0 bt) (broadcastInDim S100000 ![] bcast_S_S100000 (constant (F := Ideal) S_ .f32 0x3F800000#32))) (broadcastInDim S64 ![] bcast_S_S64 (constant (F := Ideal) S_ .f32 0x3F800000#32)))))) Wl) (broadcastInDim S64x64 ![0, 1] bcast_S1x64_S64x64_0_1 (broadcastInDim S1x64 ![1] bcast_S64_S1x64_1 bl))

end KernelSide

section ReferenceSide

open Cert.ReferenceIdeal Cert.ReferenceIdeal.Facts₀ Cert.ReferenceIdeal.Facts

variable [Cert.ReferenceIdeal.Facts]

/-- A vector of index words as a column. -/
def Rcol (i : I32 S1700000) : I32 S1700000x1 := broadcastInDim S1700000x1 ![0] bcast_S1700000_S1700000x1_0 i

/-- A negative index word counted from the end. -/
def Rwrap (i : I32 S1700000) : I32 S1700000 :=
  select (cmpi .slt i (broadcastInDim S1700000 ![] bcast_S_S1700000 (constantI S_ 32 0#32))) (addi i (broadcastInDim S1700000 ![] bcast_S_S1700000 (constantI S_ 32 100000#32))) i

/-- One layer the other way: rows of X W moved along the edges, each scaled by the product of the factors of
    the edge's two ends, summed at the receivers, the bias added, negatives cut off. -/
def RL (s d : I32 S1700000) (dv : F32 S100000) (X : F32 S100000x128) (W : F32 S128x128) (b : F32 S128) : F32 S100000x128 :=
  maximumf (addf (Host.scatterAdd (F := Ideal) scatter_S100000x128_S1700000x1_S1700000x128_1_0_0_1 (broadcastInDim S100000x128 ![] bcast_S_S100000x128 (constant (F := Ideal) S_ .f32 0x00000000#32)) (Rcol d) (mulf (Host.gather gather_S100000x128_S1700000x1_S1700000x128_1_0_n_n_0_1_1128 (Host.dotGeneral (F := Ideal) (φ₁ := .f32) (φ₂ := .f32) dot_S100000x128_S128x128_S100000x128_1_0_0_1_n_n none X W) (Rcol (Rwrap s))) (broadcastInDim S1700000x128 ![0, 1] bcast_S1700000x1_S1700000x128_0_1 (broadcastInDim S1700000x1 ![0] bcast_S1700000_S1700000x1_0 (mulf (Host.gather gather_S100000_S1700000x1_S1700000_n_0_n_n_0_1_1 dv (Rcol (Rwrap s))) (Host.gather gather_S100000_S1700000x1_S1700000_n_0_n_n_0_1_1 dv (Rcol (Rwrap d)))))))) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

end ReferenceSide

end Cert.Gcn

end
-- ==== Proof.KernelValue.lean ====
/-
  The program's result buffer, read back through its run.

  The run alternates stretches of host operations with the two tiled matrix products. Reading the contents of the
  buffers at each boundary back to the launch contents, one stretch at a time, gives the result as the composition
  of the named pieces: the sender and receiver vectors and the normalisation factors from the edge list; the
  first layer (scaled product of the features with the first weights, then the movement along the edges, the
  receiver's scaling, the bias and the cut at zero); the second layer on the first one's output; the mean over
  each graph and the last affine map. What each tiled matrix product leaves in its output array is taken as a
  hypothesis here (`hr0`, `hr1`: the scaled product of the three arrays it reads) and proved beside.
-/
import proofs.«155046_j60842506715384_2_alg».proof.Proof.Gen.KernelIdeal.Frame
import proofs.«155046_j60842506715384_2_alg».proof.Proof.Spec
import Idealize.ShloMosaic.Lib.StableHlo.Run

set_option maxRecDepth 16384

noncomputable section

namespace Cert.Gcn

open Cert.KernelIdeal Cert.KernelIdeal.Gen
open Idealize.ShloMosaic Idealize.ShloMosaic.TcCoe Idealize.SL.Sem Idealize.ShloMosaic.StableHlo

/-! ## The first stretch in two parts -/

section Split

variable {F : FTy → Type} [FloatOps F]

/-- The first seven operations of the first stretch: the sender and receiver vectors. -/
abbrev edgeOps : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
/-- The rest of the first stretch: the degrees, the factors' ingredients. -/
abbrev degOps : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x2B8CBCCC#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32) ]
theorem hostOps0_split : (hostOps0 : List (HloOp τ sig (Elt F))) = edgeOps ++ degOps := rfl

end Split

/-! ## The host stretches, from any contents `V` at their start -/

section Stretches

variable (V : Valuation τ sig (Elt Ideal))

theorem edge_v3 : after (edgeOps (F := Ideal)) V (Proc.devRef .tc main_v3) = Ksrc (V (Proc.devRef .tc main_arg1)) := by
  dsimp only [edgeOps]; after_results <;> rfl
theorem edge_v6 : after (edgeOps (F := Ideal)) V (Proc.devRef .tc main_v6) = Kdst (V (Proc.devRef .tc main_arg1)) := by
  dsimp only [edgeOps]; after_results <;> rfl
theorem edge_arg0 : after (edgeOps (F := Ideal)) V (Proc.devRef .tc main_arg0) = V (Proc.devRef .tc main_arg0) := by
  dsimp only [edgeOps]; after_results <;> rfl
theorem edge_arg2 : after (edgeOps (F := Ideal)) V (Proc.devRef .tc main_arg2) = V (Proc.devRef .tc main_arg2) := by
  dsimp only [edgeOps]; after_results <;> rfl
theorem edge_arg3 : after (edgeOps (F := Ideal)) V (Proc.devRef .tc main_arg3) = V (Proc.devRef .tc main_arg3) := by
  dsimp only [edgeOps]; after_results <;> rfl
theorem edge_arg4 : after (edgeOps (F := Ideal)) V (Proc.devRef .tc main_arg4) = V (Proc.devRef .tc main_arg4) := by
  dsimp only [edgeOps]; after_results <;> rfl
theorem edge_arg5 : after (edgeOps (F := Ideal)) V (Proc.devRef .tc main_arg5) = V (Proc.devRef .tc main_arg5) := by
  dsimp only [edgeOps]; after_results <;> rfl
theorem edge_arg6 : after (edgeOps (F := Ideal)) V (Proc.devRef .tc main_arg6) = V (Proc.devRef .tc main_arg6) := by
  dsimp only [edgeOps]; after_results <;> rfl
theorem edge_arg7 : after (edgeOps (F := Ideal)) V (Proc.devRef .tc main_arg7) = V (Proc.devRef .tc main_arg7) := by
  dsimp only [edgeOps]; after_results <;> rfl
theorem edge_arg8 : after (edgeOps (F := Ideal)) V (Proc.devRef .tc main_arg8) = V (Proc.devRef .tc main_arg8) := by
  dsimp only [edgeOps]; after_results <;> rfl

/-! ### The degrees and the ingredients of the factors (fourteen operations), from any contents `V` -/

theorem deg_v12 : after (degOps (F := Ideal)) V (Proc.devRef .tc main_v12) = cmpf .ogt (Kdeg (V (Proc.devRef .tc main_v6))) (broadcastInDim S100000 ![] Facts₀.bcast_S_S100000 (constant (F := Ideal) S_ .f32 0x00000000#32)) := by
  dsimp only [degOps]; after_results <;> (unfold Kdeg Kcol; rfl)
theorem deg_v15 : after (degOps (F := Ideal)) V (Proc.devRef .tc main_v15) = Host.rsqrt (F := Ideal) (maximumf (Kdeg (V (Proc.devRef .tc main_v6))) (broadcastInDim S100000 ![] Facts₀.bcast_S_S100000 (constant (F := Ideal) S_ .f32 0x2B8CBCCC#32))) := by
  dsimp only [degOps]; after_results <;> (unfold Kdeg Kcol; rfl)
theorem deg_cst3 : after (degOps (F := Ideal)) V (Proc.devRef .tc main_cst_3) = constant (F := Ideal) S_ .f32 0x00000000#32 := by
  dsimp only [degOps]; after_results <;> rfl
theorem deg_v3 : after (degOps (F := Ideal)) V (Proc.devRef .tc main_v3) = V (Proc.devRef .tc main_v3) := by
  dsimp only [degOps]; after_results <;> rfl
theorem deg_v6 : after (degOps (F := Ideal)) V (Proc.devRef .tc main_v6) = V (Proc.devRef .tc main_v6) := by
  dsimp only [degOps]; after_results <;> rfl
theorem deg_arg0 : after (degOps (F := Ideal)) V (Proc.devRef .tc main_arg0) = V (Proc.devRef .tc main_arg0) := by
  dsimp only [degOps]; after_results <;> rfl
theorem deg_arg2 : after (degOps (F := Ideal)) V (Proc.devRef .tc main_arg2) = V (Proc.devRef .tc main_arg2) := by
  dsimp only [degOps]; after_results <;> rfl
theorem deg_arg3 : after (degOps (F := Ideal)) V (Proc.devRef .tc main_arg3) = V (Proc.devRef .tc main_arg3) := by
  dsimp only [degOps]; after_results <;> rfl
theorem deg_arg4 : after (degOps (F := Ideal)) V (Proc.devRef .tc main_arg4) = V (Proc.devRef .tc main_arg4) := by
  dsimp only [degOps]; after_results <;> rfl
theorem deg_arg5 : after (degOps (F := Ideal)) V (Proc.devRef .tc main_arg5) = V (Proc.devRef .tc main_arg5) := by
  dsimp only [degOps]; after_results <;> rfl
theorem deg_arg6 : after (degOps (F := Ideal)) V (Proc.devRef .tc main_arg6) = V (Proc.devRef .tc main_arg6) := by
  dsimp only [degOps]; after_results <;> rfl
theorem deg_arg7 : after (degOps (F := Ideal)) V (Proc.devRef .tc main_arg7) = V (Proc.devRef .tc main_arg7) := by
  dsimp only [degOps]; after_results <;> rfl
theorem deg_arg8 : after (degOps (F := Ideal)) V (Proc.devRef .tc main_arg8) = V (Proc.devRef .tc main_arg8) := by
  dsimp only [degOps]; after_results <;> rfl

/-! ### The choice between the two values of a factor, and the first product's operands (six operations) -/

/-- From the contents `V` after the degrees to the first product's entry. -/
abbrev whereB : Valuation τ sig (Elt Ideal) := after hostOps0_2 (after (hostOps0_1 (F := Ideal)) V)

theorem whereB_v16 : whereB V (Proc.devRef .tc main_v16) = select (V (Proc.devRef .tc main_v12)) (V (Proc.devRef .tc main_v15)) (broadcastInDim S100000 ![] Facts₀.bcast_S_S100000 (V (Proc.devRef .tc main_cst_3))) := by
  dsimp only [whereB, hostOps0_1, hostOps0_2]; after_results <;> rfl
theorem whereB_v19 : whereB V (Proc.devRef .tc main_v19) = shapeCast S100000x1 (select (V (Proc.devRef .tc main_v12)) (V (Proc.devRef .tc main_v15)) (broadcastInDim S100000 ![] Facts₀.bcast_S_S100000 (V (Proc.devRef .tc main_cst_3)))) Facts₀.shapeCasts_S100000_S100000x1 := by
  dsimp only [whereB, hostOps0_1, hostOps0_2]; after_results <;> rfl
theorem whereB_v17 : whereB V (Proc.devRef .tc main_v17) = truncf (F := Ideal) (φ := .f32) .bf16 (V (Proc.devRef .tc main_arg0)) Facts₀.bitsLt_bf16_f32 := by
  dsimp only [whereB, hostOps0_1, hostOps0_2]; after_results <;> rfl
theorem whereB_v18 : whereB V (Proc.devRef .tc main_v18) = truncf (F := Ideal) (φ := .f32) .bf16 (V (Proc.devRef .tc main_arg3)) Facts₀.bitsLt_bf16_f32 := by
  dsimp only [whereB, hostOps0_1, hostOps0_2]; after_results <;> rfl
theorem whereB_v3 : whereB V (Proc.devRef .tc main_v3) = V (Proc.devRef .tc main_v3) := by
  dsimp only [whereB, hostOps0_1, hostOps0_2]; after_results <;> rfl
theorem whereB_v6 : whereB V (Proc.devRef .tc main_v6) = V (Proc.devRef .tc main_v6) := by
  dsimp only [whereB, hostOps0_1, hostOps0_2]; after_results <;> rfl
theorem whereB_arg2 : whereB V (Proc.devRef .tc main_arg2) = V (Proc.devRef .tc main_arg2) := by
  dsimp only [whereB, hostOps0_1, hostOps0_2]; after_results <;> rfl
theorem whereB_arg4 : whereB V (Proc.devRef .tc main_arg4) = V (Proc.devRef .tc main_arg4) := by
  dsimp only [whereB, hostOps0_1, hostOps0_2]; after_results <;> rfl
theorem whereB_arg5 : whereB V (Proc.devRef .tc main_arg5) = V (Proc.devRef .tc main_arg5) := by
  dsimp only [whereB, hostOps0_1, hostOps0_2]; after_results <;> rfl
theorem whereB_arg6 : whereB V (Proc.devRef .tc main_arg6) = V (Proc.devRef .tc main_arg6) := by
  dsimp only [whereB, hostOps0_1, hostOps0_2]; after_results <;> rfl
theorem whereB_arg7 : whereB V (Proc.devRef .tc main_arg7) = V (Proc.devRef .tc main_arg7) := by
  dsimp only [whereB, hostOps0_1, hostOps0_2]; after_results <;> rfl
theorem whereB_arg8 : whereB V (Proc.devRef .tc main_arg8) = V (Proc.devRef .tc main_arg8) := by
  dsimp only [whereB, hostOps0_1, hostOps0_2]; after_results <;> rfl

/-- The factor array is the choice, entry by entry, between the reciprocal square root and zero. -/
theorem Kdinv_unfold (d : I32 S1700000) : Kdinv d = select (cmpf .ogt (Kdeg d) (broadcastInDim S100000 ![] Facts₀.bcast_S_S100000 (constant (F := Ideal) S_ .f32 0x00000000#32))) (Host.rsqrt (F := Ideal) (maximumf (Kdeg d) (broadcastInDim S100000 ![] Facts₀.bcast_S_S100000 (constant (F := Ideal) S_ .f32 0x2B8CBCCC#32)))) (broadcastInDim S100000 ![] Facts₀.bcast_S_S100000 (constant (F := Ideal) S_ .f32 0x00000000#32)) := by
  unfold Kdinv; rfl

/-- From the contents `V` after the first seven operations to the first product's entry. -/
abbrev tailA : Valuation τ sig (Elt Ideal) := whereB (after (degOps (F := Ideal)) V)

theorem tailA_v16 : tailA V (Proc.devRef .tc main_v16) = Kdinv (V (Proc.devRef .tc main_v6)) := by
  rw [Kdinv_unfold]; dsimp only [tailA]; rw [whereB_v16, deg_v12, deg_v15, deg_cst3]
theorem tailA_v19 : tailA V (Proc.devRef .tc main_v19) = shapeCast S100000x1 (Kdinv (V (Proc.devRef .tc main_v6))) Facts₀.shapeCasts_S100000_S100000x1 := by
  rw [Kdinv_unfold]; dsimp only [tailA]; rw [whereB_v19, deg_v12, deg_v15, deg_cst3]
theorem tailA_v17 : tailA V (Proc.devRef .tc main_v17) = truncf (F := Ideal) (φ := .f32) .bf16 (V (Proc.devRef .tc main_arg0)) Facts₀.bitsLt_bf16_f32 := by
  dsimp only [tailA]; rw [whereB_v17, deg_arg0]
theorem tailA_v18 : tailA V (Proc.devRef .tc main_v18) = truncf (F := Ideal) (φ := .f32) .bf16 (V (Proc.devRef .tc main_arg3)) Facts₀.bitsLt_bf16_f32 := by
  dsimp only [tailA]; rw [whereB_v18, deg_arg3]
theorem tailA_v3 : tailA V (Proc.devRef .tc main_v3) = V (Proc.devRef .tc main_v3) := by
  dsimp only [tailA]; rw [whereB_v3, deg_v3]
theorem tailA_v6 : tailA V (Proc.devRef .tc main_v6) = V (Proc.devRef .tc main_v6) := by
  dsimp only [tailA]; rw [whereB_v6, deg_v6]
theorem tailA_arg2 : tailA V (Proc.devRef .tc main_arg2) = V (Proc.devRef .tc main_arg2) := by
  dsimp only [tailA]; rw [whereB_arg2, deg_arg2]
theorem tailA_arg4 : tailA V (Proc.devRef .tc main_arg4) = V (Proc.devRef .tc main_arg4) := by
  dsimp only [tailA]; rw [whereB_arg4, deg_arg4]
theorem tailA_arg5 : tailA V (Proc.devRef .tc main_arg5) = V (Proc.devRef .tc main_arg5) := by
  dsimp only [tailA]; rw [whereB_arg5, deg_arg5]
theorem tailA_arg6 : tailA V (Proc.devRef .tc main_arg6) = V (Proc.devRef .tc main_arg6) := by
  dsimp only [tailA]; rw [whereB_arg6, deg_arg6]
theorem tailA_arg7 : tailA V (Proc.devRef .tc main_arg7) = V (Proc.devRef .tc main_arg7) := by
  dsimp only [tailA]; rw [whereB_arg7, deg_arg7]
theorem tailA_arg8 : tailA V (Proc.devRef .tc main_arg8) = V (Proc.devRef .tc main_arg8) := by
  dsimp only [tailA]; rw [whereB_arg8, deg_arg8]

/-- Before the first product: from the contents `V` to the first product's entry. -/
abbrev preA : Valuation τ sig (Elt Ideal) := after hostOps0_2 (after hostOps0_1 (after (hostOps0 (F := Ideal)) V))

theorem preA_split : preA V = tailA (after (edgeOps (F := Ideal)) V) := by
  show after hostOps0_2 (after hostOps0_1 (after (hostOps0 (F := Ideal)) V)) = after hostOps0_2 (after hostOps0_1 (after (degOps (F := Ideal)) (after (edgeOps (F := Ideal)) V)))
  rw [hostOps0_split, StableHlo.after_append]

theorem preA_v3 : preA V (Proc.devRef .tc main_v3) = Ksrc (V (Proc.devRef .tc main_arg1)) := by
  rw [preA_split, tailA_v3, edge_v3]
theorem preA_v6 : preA V (Proc.devRef .tc main_v6) = Kdst (V (Proc.devRef .tc main_arg1)) := by
  rw [preA_split, tailA_v6, edge_v6]
theorem preA_v16 : preA V (Proc.devRef .tc main_v16) = Kdinv (Kdst (V (Proc.devRef .tc main_arg1))) := by
  rw [preA_split, tailA_v16, edge_v6]
theorem preA_v17 : preA V (Proc.devRef .tc main_v17) = truncf (F := Ideal) (φ := .f32) .bf16 (V (Proc.devRef .tc main_arg0)) Facts₀.bitsLt_bf16_f32 := by
  rw [preA_split, tailA_v17, edge_arg0]
theorem preA_v18 : preA V (Proc.devRef .tc main_v18) = truncf (F := Ideal) (φ := .f32) .bf16 (V (Proc.devRef .tc main_arg3)) Facts₀.bitsLt_bf16_f32 := by
  rw [preA_split, tailA_v18, edge_arg3]
theorem preA_v19 : preA V (Proc.devRef .tc main_v19) = shapeCast S100000x1 (Kdinv (Kdst (V (Proc.devRef .tc main_arg1)))) Facts₀.shapeCasts_S100000_S100000x1 := by
  rw [preA_split, tailA_v19, edge_v6]
theorem preA_arg2 : preA V (Proc.devRef .tc main_arg2) = V (Proc.devRef .tc main_arg2) := by
  rw [preA_split, tailA_arg2, edge_arg2]
theorem preA_arg4 : preA V (Proc.devRef .tc main_arg4) = V (Proc.devRef .tc main_arg4) := by
  rw [preA_split, tailA_arg4, edge_arg4]
theorem preA_arg5 : preA V (Proc.devRef .tc main_arg5) = V (Proc.devRef .tc main_arg5) := by
  rw [preA_split, tailA_arg5, edge_arg5]
theorem preA_arg6 : preA V (Proc.devRef .tc main_arg6) = V (Proc.devRef .tc main_arg6) := by
  rw [preA_split, tailA_arg6, edge_arg6]
theorem preA_arg7 : preA V (Proc.devRef .tc main_arg7) = V (Proc.devRef .tc main_arg7) := by
  rw [preA_split, tailA_arg7, edge_arg7]
theorem preA_arg8 : preA V (Proc.devRef .tc main_arg8) = V (Proc.devRef .tc main_arg8) := by
  rw [preA_split, tailA_arg8, edge_arg8]

/-- Between the two products: the rest of the first layer, and the second product's operands. -/
abbrev midB : Valuation τ sig (Elt Ideal) := after hostOps1_2 (after hostOps1_1 (after (hostOps1 (F := Ideal)) V))

set_option maxHeartbeats 8000000 in
theorem midB_v38 : midB V (Proc.devRef .tc main_v38)
    = truncf (F := Ideal) (φ := .f32) .bf16 (Kpost (V (Proc.devRef .tc main_v3)) (V (Proc.devRef .tc main_v6)) (V (Proc.devRef .tc main_v16)) (V (Proc.devRef .tc main_v20)) (V (Proc.devRef .tc main_arg4))) Facts₀.bitsLt_bf16_f32 := by
  dsimp only [midB, hostOps1, hostOps1_1, hostOps1_2]; after_results_simp <;> rfl
theorem midB_v39 : midB V (Proc.devRef .tc main_v39) = truncf (F := Ideal) (φ := .f32) .bf16 (V (Proc.devRef .tc main_arg5)) Facts₀.bitsLt_bf16_f32 := by
  dsimp only [midB, hostOps1, hostOps1_1, hostOps1_2]; after_results <;> rfl
theorem midB_v40 : midB V (Proc.devRef .tc main_v40) = shapeCast S100000x1 (V (Proc.devRef .tc main_v16)) Facts₀.shapeCasts_S100000_S100000x1 := by
  dsimp only [midB, hostOps1, hostOps1_1, hostOps1_2]; after_results <;> rfl
theorem midB_v3 : midB V (Proc.devRef .tc main_v3) = V (Proc.devRef .tc main_v3) := by
  dsimp only [midB, hostOps1, hostOps1_1, hostOps1_2]; after_results
theorem midB_v6 : midB V (Proc.devRef .tc main_v6) = V (Proc.devRef .tc main_v6) := by
  dsimp only [midB, hostOps1, hostOps1_1, hostOps1_2]; after_results
theorem midB_v16 : midB V (Proc.devRef .tc main_v16) = V (Proc.devRef .tc main_v16) := by
  dsimp only [midB, hostOps1, hostOps1_1, hostOps1_2]; after_results
theorem midB_arg2 : midB V (Proc.devRef .tc main_arg2) = V (Proc.devRef .tc main_arg2) := by
  dsimp only [midB, hostOps1, hostOps1_1, hostOps1_2]; after_results
theorem midB_arg6 : midB V (Proc.devRef .tc main_arg6) = V (Proc.devRef .tc main_arg6) := by
  dsimp only [midB, hostOps1, hostOps1_1, hostOps1_2]; after_results
theorem midB_arg7 : midB V (Proc.devRef .tc main_arg7) = V (Proc.devRef .tc main_arg7) := by
  dsimp only [midB, hostOps1, hostOps1_1, hostOps1_2]; after_results
theorem midB_arg8 : midB V (Proc.devRef .tc main_arg8) = V (Proc.devRef .tc main_arg8) := by
  dsimp only [midB, hostOps1, hostOps1_1, hostOps1_2]; after_results

/-- After the second product: the rest of the second layer, the mean over each graph, the last affine map. -/
abbrev postC : Valuation τ sig (Elt Ideal) := after hostOps2_2 (after hostOps2_1 (after (hostOps2 (F := Ideal)) V))

set_option maxHeartbeats 8000000 in
theorem postC_v74 : postC V (Proc.devRef .tc main_v74)
    = Ktail (Kpost (V (Proc.devRef .tc main_v3)) (V (Proc.devRef .tc main_v6)) (V (Proc.devRef .tc main_v16)) (V (Proc.devRef .tc main_v41)) (V (Proc.devRef .tc main_arg6)))
        (V (Proc.devRef .tc main_arg2)) (V (Proc.devRef .tc main_arg7)) (V (Proc.devRef .tc main_arg8)) := by
  dsimp only [postC, hostOps2, hostOps2_1, hostOps2_2]; after_results_simp <;> rfl

end Stretches

/-! ## The chain: every boundary's contents read back to the launch contents -/

section Chain

variable (m : (ℓ : Loc nD τ sig) → Buf (Elt Ideal) ℓ) (ρ : Dev nD → PrngReg) (c : Dev nD)

/-- The sender and receiver vectors and the normalisation factors of the launch's edge list. -/
abbrev kS : I32 S1700000 := Ksrc (m ((c : Thread nD τ).loc main_arg1))
abbrev kD : I32 S1700000 := Kdst (m ((c : Thread nD τ).loc main_arg1))
abbrev kV : F32 S100000 := Kdinv (kD m c)
/-- The first scaled product, the first layer, the second scaled product, the second layer, the result. -/
abbrev kZ1 : F32 S100000x128 :=
  Kscaled (truncf (F := Ideal) (φ := .f32) .bf16 (m ((c : Thread nD τ).loc main_arg0)) Facts₀.bitsLt_bf16_f32)
    (truncf (F := Ideal) (φ := .f32) .bf16 (m ((c : Thread nD τ).loc main_arg3)) Facts₀.bitsLt_bf16_f32)
    (shapeCast S100000x1 (kV m c) Facts₀.shapeCasts_S100000_S100000x1)
abbrev kH1 : F32 S100000x128 := Kpost (kS m c) (kD m c) (kV m c) (kZ1 m c) (m ((c : Thread nD τ).loc main_arg4))
abbrev kZ2 : F32 S100000x128 :=
  Kscaled (truncf (F := Ideal) (φ := .f32) .bf16 (kH1 m c) Facts₀.bitsLt_bf16_f32)
    (truncf (F := Ideal) (φ := .f32) .bf16 (m ((c : Thread nD τ).loc main_arg5)) Facts₀.bitsLt_bf16_f32)
    (shapeCast S100000x1 (kV m c) Facts₀.shapeCasts_S100000_S100000x1)
abbrev kH2 : F32 S100000x128 := Kpost (kS m c) (kD m c) (kV m c) (kZ2 m c) (m ((c : Thread nD τ).loc main_arg6))
abbrev kOut : F32 S64x64 :=
  Ktail (kH2 m c) (m ((c : Thread nD τ).loc main_arg2)) (m ((c : Thread nD τ).loc main_arg7)) (m ((c : Thread nD τ).loc main_arg8))

/-! ### At the first product's entry -/

theorem W3_v3 : W3 m ρ c (Proc.devRef .tc main_v3) = kS m c := preA_v3 (W0 m ρ c)
theorem W3_v6 : W3 m ρ c (Proc.devRef .tc main_v6) = kD m c := preA_v6 (W0 m ρ c)
theorem W3_v16 : W3 m ρ c (Proc.devRef .tc main_v16) = kV m c := preA_v16 (W0 m ρ c)
theorem W3_v17 : W3 m ρ c (Proc.devRef .tc main_v17) = truncf (F := Ideal) (φ := .f32) .bf16 (m ((c : Thread nD τ).loc main_arg0)) Facts₀.bitsLt_bf16_f32 := preA_v17 (W0 m ρ c)
theorem W3_v18 : W3 m ρ c (Proc.devRef .tc main_v18) = truncf (F := Ideal) (φ := .f32) .bf16 (m ((c : Thread nD τ).loc main_arg3)) Facts₀.bitsLt_bf16_f32 := preA_v18 (W0 m ρ c)
theorem W3_v19 : W3 m ρ c (Proc.devRef .tc main_v19) = shapeCast S100000x1 (kV m c) Facts₀.shapeCasts_S100000_S100000x1 := preA_v19 (W0 m ρ c)
theorem W3_arg2 : W3 m ρ c (Proc.devRef .tc main_arg2) = m ((c : Thread nD τ).loc main_arg2) := preA_arg2 (W0 m ρ c)
theorem W3_arg4 : W3 m ρ c (Proc.devRef .tc main_arg4) = m ((c : Thread nD τ).loc main_arg4) := preA_arg4 (W0 m ρ c)
theorem W3_arg5 : W3 m ρ c (Proc.devRef .tc main_arg5) = m ((c : Thread nD τ).loc main_arg5) := preA_arg5 (W0 m ρ c)
theorem W3_arg6 : W3 m ρ c (Proc.devRef .tc main_arg6) = m ((c : Thread nD τ).loc main_arg6) := preA_arg6 (W0 m ρ c)
theorem W3_arg7 : W3 m ρ c (Proc.devRef .tc main_arg7) = m ((c : Thread nD τ).loc main_arg7) := preA_arg7 (W0 m ρ c)
theorem W3_arg8 : W3 m ρ c (Proc.devRef .tc main_arg8) = m ((c : Thread nD τ).loc main_arg8) := preA_arg8 (W0 m ρ c)

/-! ### At the first product's exit -/

variable (hr0 : ∀ (V : (c : Dev nD) → (b : Ref sig .tc) → Buf (Elt Ideal) ((c : Thread nD τ).loc b)) (c : Dev nD),
    (dat0 (F := Ideal) V c).arrAt 3 cfg0.N = Kscaled (V c main_v17) (V c main_v18) (V c main_v19))
variable (hr1 : ∀ (V : (c : Dev nD) → (b : Ref sig .tc) → Buf (Elt Ideal) ((c : Thread nD τ).loc b)) (c : Dev nD),
    (dat1 (F := Ideal) V c).arrAt 3 cfg1.N = Kscaled (V c main_v38) (V c main_v39) (V c main_v40))

include hr0 in
theorem W4_v20 : W4 m ρ c (Proc.devRef .tc main_v20) = kZ1 m c := by
  refine (W4_arr m ρ c 3).trans ((hr0 (V3 m ρ) c).trans ?_)
  show Kscaled (W3 m ρ c (Proc.devRef .tc main_v17)) (W3 m ρ c (Proc.devRef .tc main_v18)) (W3 m ρ c (Proc.devRef .tc main_v19)) = _
  rw [W3_v17, W3_v18, W3_v19]
theorem W4_v3 : W4 m ρ c (Proc.devRef .tc main_v3) = kS m c := (W4_of_ne m ρ c main_v3 (by decide)).trans (W3_v3 m ρ c)
theorem W4_v6 : W4 m ρ c (Proc.devRef .tc main_v6) = kD m c := (W4_of_ne m ρ c main_v6 (by decide)).trans (W3_v6 m ρ c)
theorem W4_v16 : W4 m ρ c (Proc.devRef .tc main_v16) = kV m c := (W4_of_ne m ρ c main_v16 (by decide)).trans (W3_v16 m ρ c)
theorem W4_arg2 : W4 m ρ c (Proc.devRef .tc main_arg2) = m ((c : Thread nD τ).loc main_arg2) := (W4_of_ne m ρ c main_arg2 (by decide)).trans (W3_arg2 m ρ c)
theorem W4_arg4 : W4 m ρ c (Proc.devRef .tc main_arg4) = m ((c : Thread nD τ).loc main_arg4) := (W4_of_ne m ρ c main_arg4 (by decide)).trans (W3_arg4 m ρ c)
theorem W4_arg5 : W4 m ρ c (Proc.devRef .tc main_arg5) = m ((c : Thread nD τ).loc main_arg5) := (W4_of_ne m ρ c main_arg5 (by decide)).trans (W3_arg5 m ρ c)
theorem W4_arg6 : W4 m ρ c (Proc.devRef .tc main_arg6) = m ((c : Thread nD τ).loc main_arg6) := (W4_of_ne m ρ c main_arg6 (by decide)).trans (W3_arg6 m ρ c)
theorem W4_arg7 : W4 m ρ c (Proc.devRef .tc main_arg7) = m ((c : Thread nD τ).loc main_arg7) := (W4_of_ne m ρ c main_arg7 (by decide)).trans (W3_arg7 m ρ c)
theorem W4_arg8 : W4 m ρ c (Proc.devRef .tc main_arg8) = m ((c : Thread nD τ).loc main_arg8) := (W4_of_ne m ρ c main_arg8 (by decide)).trans (W3_arg8 m ρ c)

/-! ### At the second product's entry -/

include hr0 in
theorem W7_v38 : W7 m ρ c (Proc.devRef .tc main_v38) = truncf (F := Ideal) (φ := .f32) .bf16 (kH1 m c) Facts₀.bitsLt_bf16_f32 := by
  refine (midB_v38 (W4 m ρ c)).trans ?_
  rw [W4_v3, W4_v6, W4_v16, W4_v20 m ρ c hr0, W4_arg4]
theorem W7_v39 : W7 m ρ c (Proc.devRef .tc main_v39) = truncf (F := Ideal) (φ := .f32) .bf16 (m ((c : Thread nD τ).loc main_arg5)) Facts₀.bitsLt_bf16_f32 := by
  refine (midB_v39 (W4 m ρ c)).trans ?_
  rw [W4_arg5]
theorem W7_v40 : W7 m ρ c (Proc.devRef .tc main_v40) = shapeCast S100000x1 (kV m c) Facts₀.shapeCasts_S100000_S100000x1 := by
  refine (midB_v40 (W4 m ρ c)).trans ?_
  rw [W4_v16]
theorem W7_v3 : W7 m ρ c (Proc.devRef .tc main_v3) = kS m c := (midB_v3 (W4 m ρ c)).trans (W4_v3 m ρ c)
theorem W7_v6 : W7 m ρ c (Proc.devRef .tc main_v6) = kD m c := (midB_v6 (W4 m ρ c)).trans (W4_v6 m ρ c)
theorem W7_v16 : W7 m ρ c (Proc.devRef .tc main_v16) = kV m c := (midB_v16 (W4 m ρ c)).trans (W4_v16 m ρ c)
theorem W7_arg2 : W7 m ρ c (Proc.devRef .tc main_arg2) = m ((c : Thread nD τ).loc main_arg2) := (midB_arg2 (W4 m ρ c)).trans (W4_arg2 m ρ c)
theorem W7_arg6 : W7 m ρ c (Proc.devRef .tc main_arg6) = m ((c : Thread nD τ).loc main_arg6) := (midB_arg6 (W4 m ρ c)).trans (W4_arg6 m ρ c)
theorem W7_arg7 : W7 m ρ c (Proc.devRef .tc main_arg7) = m ((c : Thread nD τ).loc main_arg7) := (midB_arg7 (W4 m ρ c)).trans (W4_arg7 m ρ c)
theorem W7_arg8 : W7 m ρ c (Proc.devRef .tc main_arg8) = m ((c : Thread nD τ).loc main_arg8) := (midB_arg8 (W4 m ρ c)).trans (W4_arg8 m ρ c)

/-! ### At the second product's exit, and the result -/

include hr0 hr1 in
theorem W8_v41 : W8 m ρ c (Proc.devRef .tc main_v41) = kZ2 m c := by
  refine (W8_arr m ρ c 3).trans ((hr1 (V7 m ρ) c).trans ?_)
  show Kscaled (W7 m ρ c (Proc.devRef .tc main_v38)) (W7 m ρ c (Proc.devRef .tc main_v39)) (W7 m ρ c (Proc.devRef .tc main_v40)) = _
  rw [W7_v38 m ρ c hr0, W7_v39, W7_v40]
theorem W8_v3 : W8 m ρ c (Proc.devRef .tc main_v3) = kS m c := (W8_of_ne m ρ c main_v3 (by decide)).trans (W7_v3 m ρ c)
theorem W8_v6 : W8 m ρ c (Proc.devRef .tc main_v6) = kD m c := (W8_of_ne m ρ c main_v6 (by decide)).trans (W7_v6 m ρ c)
theorem W8_v16 : W8 m ρ c (Proc.devRef .tc main_v16) = kV m c := (W8_of_ne m ρ c main_v16 (by decide)).trans (W7_v16 m ρ c)
theorem W8_arg2 : W8 m ρ c (Proc.devRef .tc main_arg2) = m ((c : Thread nD τ).loc main_arg2) := (W8_of_ne m ρ c main_arg2 (by decide)).trans (W7_arg2 m ρ c)
theorem W8_arg6 : W8 m ρ c (Proc.devRef .tc main_arg6) = m ((c : Thread nD τ).loc main_arg6) := (W8_of_ne m ρ c main_arg6 (by decide)).trans (W7_arg6 m ρ c)
theorem W8_arg7 : W8 m ρ c (Proc.devRef .tc main_arg7) = m ((c : Thread nD τ).loc main_arg7) := (W8_of_ne m ρ c main_arg7 (by decide)).trans (W7_arg7 m ρ c)
theorem W8_arg8 : W8 m ρ c (Proc.devRef .tc main_arg8) = m ((c : Thread nD τ).loc main_arg8) := (W8_of_ne m ρ c main_arg8 (by decide)).trans (W7_arg8 m ρ c)

include hr0 hr1 in
/-- THE RESULT: what the run leaves in the result buffer is the composition of the named pieces. -/
theorem kernel_value : W11 m ρ c (Proc.devRef .tc main_v74) = kOut m c := by
  refine (postC_v74 (W8 m ρ c)).trans ?_
  rw [W8_v3, W8_v6, W8_v16, W8_v41 m ρ c hr0 hr1, W8_arg6, W8_arg2, W8_arg7, W8_arg8]

end Chain

end Cert.Gcn

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.RegionValue.lean ====
/-
  What each of the two tiled matrix products leaves in its output array, as one whole-array function of the three
  arrays it reads.

  The grid has 10 points. At point t the features' window holds rows 10000·t … 10000·t + 9999 of the [100000, 128]
  feature array, the weights' window the whole [128, 128] weight array, the factor window rows 10000·t … of the
  [100000, 1] factor column; the body stores, at (r, q) of the output block, the factor of row r times the sum over k
  of feature (r, k) times weight (k, q), and the block is written back at rows 10000·t … of the output array. So block
  t of the final array is block t of the scaled product (entry (p, q) = factor p · Σ k, X (p, k) · W (k, q)), and the
  ten blocks tile the array: the output array ends holding the scaled product, whatever the arrays held when the
  region was entered.
-/
import proofs.«155046_j60842506715384_2_alg».proof.Proof.Gen.KernelIdeal.Frame
import proofs.«155046_j60842506715384_2_alg».proof.Proof.Spec
import proofs.«155046_j60842506715384_2_alg».proof.Proof.LibHostRead
import proofs.«155046_j60842506715384_2_alg».proof.Proof.LibKeepdims
import Idealize.ShloMosaic.Lib.Pipeline.Value

set_option maxRecDepth 16384

noncomputable section

namespace Cert.Gcn

open Cert.KernelIdeal Idealize.ShloMosaic Idealize.ShloMosaic.ValueIdx
open Idealize.ShloMosaic.TcCoe Idealize.SL.Sem
open Idealize.ShloMosaic.Pipeline (Dat)

/-- The zero offsets of a whole-block access, as a constant function. -/
theorem hz : (![0, 0] : Fin 2 → Nat) = fun _ => 0 := funext fun a => by fin_cases a <;> rfl

/-- The block product's dimension numbers are rows times columns: the left operand is read at (row, contracted
    coordinate), the right at (contracted coordinate, column). -/
theorem blockDot_plain : Cert.LibHostRead.PlainDot dot_S10000x128_S128x128_S10000x128_1_0_0_1_n_n where
  hr := rfl
  hs := rfl
  hl0 := fun _ _ => rfl
  hl1 := fun _ _ => rfl
  hr0 := fun _ _ => rfl
  hr1 := fun _ _ => rfl

/-! ## The first product -/

/-- Entry (r, q) of what the body stores: the factor of row r times row r of the staged features against column q
    of the staged weights. -/
theorem scaledBlock0_apply (x0 : FVec Ideal S10000x128 .bf16) (x1 : FVec Ideal S128x128 .bf16) (x2 : FVec Ideal S10000x1 .f32)
    (r : Fin 10000) (q : Fin 128) :
    Gen.k0_pay1 (F := Ideal) x0 x1 x2 (ix2 r q) = x2 (ix2 r (0 : Fin 1)) * ∑ k : Fin 128, x0 (ix2 r k) * x1 (ix2 k q) := by
  unfold Gen.k0_pay1
  simp only [shapeCast_self]
  rw [mulf_apply, Cert.LibKeepdims.broadcastTo_a1_ab_apply]
  exact congrArg _ (Cert.LibHostRead.matmul_plain_zero_apply _ blockDot_plain x0 x1 r q)

/-- A stored entry from the three staged blocks: when row r of the staged features and of the staged factor column are
    row p of their arrays and the staged weights are the weights, the stored entry (r, q) is entry (p, q) of the scaled
    product. -/
theorem scaledBlock0_eq (X : B16 S100000x128) (W : B16 S128x128) (dc : F32 S100000x1)
    (x0 : FVec Ideal S10000x128 .bf16) (x1 : FVec Ideal S128x128 .bf16) (x2 : FVec Ideal S10000x1 .f32)
    (r : Fin 10000) (q : Fin 128) (p : Fin 100000)
    (h0 : ∀ k : Fin 128, x0 (ix2 r k) = X (ix2 p k)) (h1 : ∀ k : Fin 128, x1 (ix2 k q) = W (ix2 k q))
    (h2 : x2 (ix2 r (0 : Fin 1)) = dc (ix2 p (0 : Fin 1))) :
    Gen.k0_pay1 (F := Ideal) x0 x1 x2 (ix2 r q) = scaledAt X W dc p q := by
  rw [scaledBlock0_apply, h2]
  unfold scaledAt
  refine congrArg _ (Finset.sum_congr rfl fun k _ => ?_)
  rw [h0, h1]

/-- The block indices over the grid: the features' and the factor column's blocks move down their rows with the
    output's, the weights' block stays, no window moves along its columns, and the output's row block is at most 9. -/
theorem blockIndex0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 9 :=
  (by decide +kernel : ∀ t : Fin grid0.N, _)

/-- Each of the ten row blocks of the output is some point's. -/
theorem blockIndex0_onto : ∀ q0 : Fin 10, ∃ t : Fin cfg0.N, win0_3.index t = ![q0.val, 0] :=
  (by decide +kernel : ∀ q0 : Fin 10, ∃ t : Fin grid0.N, win0_3.index t = ![q0.val, 0])

/-- What point t writes back is block t of the scaled product of the arrays as the region finds them. -/
theorem flushed0_eq (V : (c : Dev nD) → (b : Ref sig .tc) → Buf (Elt Ideal) ((c : Thread nD τ).loc b)) (c : Dev nD) (t : Fin cfg0.N) :
    (Gen.dat0 (F := Ideal) V c).flushed 3 t
      = ((cfg0.win 3).blk t).view.read (Elt Ideal) (Kscaled (V c main_v17) (V c main_v18) (V c main_v19)) := by
  show (cfg0.win 3).cut (grid0.coords t) ((Gen.dat0 V c).after 3 t) = _
  rw [Gen.after0_3]
  unfold Gen.out0_3
  rw [View.canon_unit_zero hz]
  simp only [View.ld_unit_zero (S := S10000x128) hz, View.ld_unit_zero (S := S128x128) hz, View.ld_unit_zero (S := S10000x1) hz]
  obtain ⟨e0, e1, e2, e3, e4, e5, e6, e7⟩ := blockIndex0 t
  funext j
  obtain ⟨r, q, rfl⟩ : ∃ (r : Fin 10000) (q : Fin 128), j = (ix2 r q : S10000x128.Idx) :=
    ⟨j 0, j 1, eq_ix2 (n0 := 10000) (n1 := 128) j⟩
  have hp : win0_3.index t (0 : Fin 2) * 10000 + r.val < 100000 := by have := r.isLt; omega
  show Gen.k0_pay1 (F := Ideal) (Gen.iblk0 V c 0 t) (Gen.iblk0 V c 1 t) (Gen.iblk0 V c 2 t) (ix2 r q)
    = Kscaled (V c main_v17) (V c main_v18) (V c main_v19) (((cfg0.win 3).blk t).view.emb (ix2 r q))
  have hemb : ((cfg0.win 3).blk t).view.emb (ix2 r q)
      = (ix2 (⟨win0_3.index t (0 : Fin 2) * 10000 + r.val, hp⟩ : Fin 100000) q : S100000x128.Idx) := by
    funext a; apply Fin.ext
    match a with
    | ⟨0, _⟩ => show win0_3.index t (0 : Fin 2) * 10000 + 1 * r.val = win0_3.index t (0 : Fin 2) * 10000 + r.val; omega
    | ⟨1, _⟩ => show win0_3.index t (1 : Fin 2) * 128 + 1 * q.val = q.val; omega
  rw [hemb, Kscaled_apply]
  refine scaledBlock0_eq _ _ _ _ _ _ r q _ (fun k => ?_) (fun k => ?_) ?_
  · show (V c main_v17 : B16 S100000x128) (((cfg0.win 0).blk t).view.emb (ix2 r k)) = (V c main_v17 : B16 S100000x128) (ix2 _ k)
    refine congrArg (V c main_v17 : B16 S100000x128) (funext fun a => Fin.ext ?_)
    match a with
    | ⟨0, _⟩ => show win0_0.index t (0 : Fin 2) * 10000 + 1 * r.val = win0_3.index t (0 : Fin 2) * 10000 + r.val; omega
    | ⟨1, _⟩ => show win0_0.index t (1 : Fin 2) * 128 + 1 * k.val = k.val; omega
  · show (V c main_v18 : B16 S128x128) (((cfg0.win 1).blk t).view.emb (ix2 k q)) = (V c main_v18 : B16 S128x128) (ix2 k q)
    refine congrArg (V c main_v18 : B16 S128x128) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show (V c main_v19 : F32 S100000x1) (((cfg0.win 2).blk t).view.emb (ix2 r (0 : Fin 1))) = (V c main_v19 : F32 S100000x1) (ix2 _ (0 : Fin 1))
    refine congrArg (V c main_v19 : F32 S100000x1) (funext fun a => Fin.ext ?_)
    match a with
    | ⟨0, _⟩ => show win0_2.index t (0 : Fin 2) * 10000 + 1 * r.val = win0_3.index t (0 : Fin 2) * 10000 + r.val; omega
    | ⟨1, _⟩ => show win0_2.index t (1 : Fin 2) * 1 + 1 * (0 : Fin 1).val = (0 : Fin 1).val; omega

/-- An index of the output array is in point t's block iff each coordinate is in the block's range on its axis. -/
theorem mem_outBlock0 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v20).slice (win0_3.rect t)).set ↔ _
  rw [View.set_slice_whole, Rect.mem_set_unit]
  exact Iff.rfl

/-- The ten blocks tile the output array: row p is in the block of the point whose row block is p / 10000. -/
theorem outBlocks0_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := blockIndex0_onto ⟨(i 0).val / 10000, by omega⟩
  have q0 : win0_3.index t (0 : Fin 2) = (i 0).val / 10000 := congrFun ht 0
  have q1 : win0_3.index t (1 : Fin 2) = 0 := congrFun ht 1
  refine ⟨t, Gen.flush0_3 t, ?_⟩
  rw [mem_outBlock0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The first product's output array after the region is the scaled product of the three arrays it reads. -/
theorem region0_value (V : (c : Dev nD) → (b : Ref sig .tc) → Buf (Elt Ideal) ((c : Thread nD τ).loc b)) (c : Dev nD) :
    (Cert.KernelIdeal.Gen.dat0 (F := Ideal) V c).arrAt 3 cfg0.N = Kscaled (V c main_v17) (V c main_v18) (V c main_v19) :=
  (Gen.dat0 (F := Ideal) V c).arrAt_eq_of_cover 3 (Kscaled (V c main_v17) (V c main_v18) (V c main_v19))
    (fun t _ => flushed0_eq V c t) outBlocks0_cover

/-! ## The second product -/

/-- Entry (r, q) of what the body stores: the factor of row r times row r of the staged features against column q
    of the staged weights. -/
theorem scaledBlock1_apply (x0 : FVec Ideal S10000x128 .bf16) (x1 : FVec Ideal S128x128 .bf16) (x2 : FVec Ideal S10000x1 .f32)
    (r : Fin 10000) (q : Fin 128) :
    Gen.k1_pay1 (F := Ideal) x0 x1 x2 (ix2 r q) = x2 (ix2 r (0 : Fin 1)) * ∑ k : Fin 128, x0 (ix2 r k) * x1 (ix2 k q) := by
  unfold Gen.k1_pay1
  simp only [shapeCast_self]
  rw [mulf_apply, Cert.LibKeepdims.broadcastTo_a1_ab_apply]
  exact congrArg _ (Cert.LibHostRead.matmul_plain_zero_apply _ blockDot_plain x0 x1 r q)

/-- A stored entry from the three staged blocks: when row r of the staged features and of the staged factor column are
    row p of their arrays and the staged weights are the weights, the stored entry (r, q) is entry (p, q) of the scaled
    product. -/
theorem scaledBlock1_eq (X : B16 S100000x128) (W : B16 S128x128) (dc : F32 S100000x1)
    (x0 : FVec Ideal S10000x128 .bf16) (x1 : FVec Ideal S128x128 .bf16) (x2 : FVec Ideal S10000x1 .f32)
    (r : Fin 10000) (q : Fin 128) (p : Fin 100000)
    (h0 : ∀ k : Fin 128, x0 (ix2 r k) = X (ix2 p k)) (h1 : ∀ k : Fin 128, x1 (ix2 k q) = W (ix2 k q))
    (h2 : x2 (ix2 r (0 : Fin 1)) = dc (ix2 p (0 : Fin 1))) :
    Gen.k1_pay1 (F := Ideal) x0 x1 x2 (ix2 r q) = scaledAt X W dc p q := by
  rw [scaledBlock1_apply, h2]
  unfold scaledAt
  refine congrArg _ (Finset.sum_congr rfl fun k _ => ?_)
  rw [h0, h1]

/-- The block indices over the grid: the features' and the factor column's blocks move down their rows with the
    output's, the weights' block stays, no window moves along its columns, and the output's row block is at most 9. -/
theorem blockIndex1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = win1_3.index t (0 : Fin 2)
    ∧ win1_2.index t (1 : Fin 2) = 0
    ∧ win1_3.index t (1 : Fin 2) = 0
    ∧ win1_3.index t (0 : Fin 2) ≤ 9 :=
  (by decide +kernel : ∀ t : Fin grid1.N, _)

/-- Each of the ten row blocks of the output is some point's. -/
theorem blockIndex1_onto : ∀ q0 : Fin 10, ∃ t : Fin cfg1.N, win1_3.index t = ![q0.val, 0] :=
  (by decide +kernel : ∀ q0 : Fin 10, ∃ t : Fin grid1.N, win1_3.index t = ![q0.val, 0])

/-- What point t writes back is block t of the scaled product of the arrays as the region finds them. -/
theorem flushed1_eq (V : (c : Dev nD) → (b : Ref sig .tc) → Buf (Elt Ideal) ((c : Thread nD τ).loc b)) (c : Dev nD) (t : Fin cfg1.N) :
    (Gen.dat1 (F := Ideal) V c).flushed 3 t
      = ((cfg1.win 3).blk t).view.read (Elt Ideal) (Kscaled (V c main_v38) (V c main_v39) (V c main_v40)) := by
  show (cfg1.win 3).cut (grid1.coords t) ((Gen.dat1 V c).after 3 t) = _
  rw [Gen.after1_3]
  unfold Gen.out1_3
  rw [View.canon_unit_zero hz]
  simp only [View.ld_unit_zero (S := S10000x128) hz, View.ld_unit_zero (S := S128x128) hz, View.ld_unit_zero (S := S10000x1) hz]
  obtain ⟨e0, e1, e2, e3, e4, e5, e6, e7⟩ := blockIndex1 t
  funext j
  obtain ⟨r, q, rfl⟩ : ∃ (r : Fin 10000) (q : Fin 128), j = (ix2 r q : S10000x128.Idx) :=
    ⟨j 0, j 1, eq_ix2 (n0 := 10000) (n1 := 128) j⟩
  have hp : win1_3.index t (0 : Fin 2) * 10000 + r.val < 100000 := by have := r.isLt; omega
  show Gen.k1_pay1 (F := Ideal) (Gen.iblk1 V c 0 t) (Gen.iblk1 V c 1 t) (Gen.iblk1 V c 2 t) (ix2 r q)
    = Kscaled (V c main_v38) (V c main_v39) (V c main_v40) (((cfg1.win 3).blk t).view.emb (ix2 r q))
  have hemb : ((cfg1.win 3).blk t).view.emb (ix2 r q)
      = (ix2 (⟨win1_3.index t (0 : Fin 2) * 10000 + r.val, hp⟩ : Fin 100000) q : S100000x128.Idx) := by
    funext a; apply Fin.ext
    match a with
    | ⟨0, _⟩ => show win1_3.index t (0 : Fin 2) * 10000 + 1 * r.val = win1_3.index t (0 : Fin 2) * 10000 + r.val; omega
    | ⟨1, _⟩ => show win1_3.index t (1 : Fin 2) * 128 + 1 * q.val = q.val; omega
  rw [hemb, Kscaled_apply]
  refine scaledBlock1_eq _ _ _ _ _ _ r q _ (fun k => ?_) (fun k => ?_) ?_
  · show (V c main_v38 : B16 S100000x128) (((cfg1.win 0).blk t).view.emb (ix2 r k)) = (V c main_v38 : B16 S100000x128) (ix2 _ k)
    refine congrArg (V c main_v38 : B16 S100000x128) (funext fun a => Fin.ext ?_)
    match a with
    | ⟨0, _⟩ => show win1_0.index t (0 : Fin 2) * 10000 + 1 * r.val = win1_3.index t (0 : Fin 2) * 10000 + r.val; omega
    | ⟨1, _⟩ => show win1_0.index t (1 : Fin 2) * 128 + 1 * k.val = k.val; omega
  · show (V c main_v39 : B16 S128x128) (((cfg1.win 1).blk t).view.emb (ix2 k q)) = (V c main_v39 : B16 S128x128) (ix2 k q)
    refine congrArg (V c main_v39 : B16 S128x128) (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · show (V c main_v40 : F32 S100000x1) (((cfg1.win 2).blk t).view.emb (ix2 r (0 : Fin 1))) = (V c main_v40 : F32 S100000x1) (ix2 _ (0 : Fin 1))
    refine congrArg (V c main_v40 : F32 S100000x1) (funext fun a => Fin.ext ?_)
    match a with
    | ⟨0, _⟩ => show win1_2.index t (0 : Fin 2) * 10000 + 1 * r.val = win1_3.index t (0 : Fin 2) * 10000 + r.val; omega
    | ⟨1, _⟩ => show win1_2.index t (1 : Fin 2) * 1 + 1 * (0 : Fin 1).val = (0 : Fin 1).val; omega

/-- An index of the output array is in point t's block iff each coordinate is in the block's range on its axis. -/
theorem mem_outBlock1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v41).slice (win1_3.rect t)).set ↔ _
  rw [View.set_slice_whole, Rect.mem_set_unit]
  exact Iff.rfl

/-- The ten blocks tile the output array: row p is in the block of the point whose row block is p / 10000. -/
theorem outBlocks1_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := blockIndex1_onto ⟨(i 0).val / 10000, by omega⟩
  have q0 : win1_3.index t (0 : Fin 2) = (i 0).val / 10000 := congrFun ht 0
  have q1 : win1_3.index t (1 : Fin 2) = 0 := congrFun ht 1
  refine ⟨t, Gen.flush1_3 t, ?_⟩
  rw [mem_outBlock1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The second product's output array after the region is the scaled product of the three arrays it reads. -/
theorem region1_value (V : (c : Dev nD) → (b : Ref sig .tc) → Buf (Elt Ideal) ((c : Thread nD τ).loc b)) (c : Dev nD) :
    (Cert.KernelIdeal.Gen.dat1 (F := Ideal) V c).arrAt 3 cfg1.N = Kscaled (V c main_v38) (V c main_v39) (V c main_v40) :=
  (Gen.dat1 (F := Ideal) V c).arrAt_eq_of_cover 3 (Kscaled (V c main_v38) (V c main_v39) (V c main_v40))
    (fun t _ => flushed1_eq V c t) outBlocks1_cover

end Cert.Gcn

end
-- ==== Proof.LibNodeScatter.lean ====
/-
  Rows of a node-by-feature array gathered, and accumulated, along the node axis, read at an index.

  The operand is an array over (node, feature) of extents `N, D`; the indices are a column of `M` words, each
  naming a node; the other array is over (index, feature) of extents `M, D`.
  * An ACCUMULATING SCATTER adds update row `e` to operand row `idx[e]` (the word read signed; a row outside
    `[0, N)` is dropped). On the extended reals entry `(n, d)` of the result is the operand's entry plus the sum,
    over the rows `e` with `idx[e] = n`, of update entry `(e, d)` (`hostScatterAdd_nodes_apply`), because update
    entry `(e, d)` lands exactly at `(idx[e], d)` (`resultIdx?_nodes`).
  * A GATHER reads operand row `idx[e]`, the word read signed and clamped into `[0, N − 1]`, into result row `e`
    (`gather_nodes_apply`).
  Neither statement depends on the feature extent `D`: the same rows are selected whatever the width of a row.
-/
import Idealize.ShloMosaic.PureOps.Ideal
import Idealize.ShloMosaic.Lib.ValueIdx

noncomputable section
open scoped BigOperators
namespace Cert.LibNodes

open Idealize.ShloMosaic Idealize.ShloMosaic.ValueIdx

/-- The dimension numbers of a scatter of whole rows into a node-by-feature array: update axis 1 is the window
    axis, operand axis 0 is the inserted one and the one the index names. -/
abbrev nodeScatterDims (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

variable {N D M w : Nat} (wf : ScatterDims.WF ⟨2, ![N, D]⟩ ⟨2, ![M, 1]⟩ ⟨2, ![M, D]⟩ [1] [0] [0] 1)

/-- On the node axis an update's start is its row's index word, read signed. -/
theorem start0 (j : (⟨2, ![M, D]⟩ : Shape).Idx) (idx : IVec ⟨2, ![M, 1]⟩ w) :
    (nodeScatterDims N D M wf).start j idx 0 = (idx (ix2 (j 0) (0 : Fin 1))).toInt := by
  unfold ScatterDims.start
  rw [dif_pos (show (0 : Fin 2) ∈ (nodeScatterDims N D M wf).scatterDimsToOperandDims from List.mem_singleton.mpr rfl)]
  congr 2
  funext b; refine Fin.ext ?_
  match b with
  | ⟨0, _⟩ => rfl
  | ⟨1, _⟩ => rfl

/-- Update entry `(e, d)` lands at `(n, d')` exactly when the feature agrees and row `e`'s index word, read
    signed, is `n`. -/
theorem resultIdx?_nodes (e : Fin M) (d : Fin D) (idx : IVec ⟨2, ![M, 1]⟩ w) (n : Fin N) (d' : Fin D) :
    (nodeScatterDims N D M wf).resultIdx? (ix2 e d) idx = some (ix2 n d') ↔
      d' = d ∧ (idx (ix2 e (0 : Fin 1))).toInt = (n.val : ℤ) := by
  have hs : (nodeScatterDims N D M wf).start (ix2 e d) idx 0 = (idx (ix2 e (0 : Fin 1))).toInt := start0 wf _ idx
  unfold ScatterDims.resultIdx?
  split
  · next h =>
    rw [Option.some.injEq]
    constructor
    · intro hf
      have h0 := congrArg (fun f => (f 0).val) hf
      have h1 := congrArg (fun f => (f 1).val) hf
      have g0 := (h 0).1
      simp only at h0 h1
      refine ⟨Fin.ext ?_, ?_⟩
      · have : ((0 : ℤ) + ((d.val : ℕ) : ℤ)).toNat = d'.val := h1
        omega
      · have e1 : ((nodeScatterDims N D M wf).start (ix2 e d) idx 0 + ((0 : ℕ) : ℤ)).toNat = n.val := h0
        have e2 : 0 ≤ (nodeScatterDims N D M wf).start (ix2 e d) idx 0 + ((0 : ℕ) : ℤ) := g0
        rw [hs] at e1 e2
        omega
    · rintro ⟨rfl, hx⟩
      funext a
      refine Fin.ext ?_
      match a with
      | ⟨0, _⟩ =>
        show ((nodeScatterDims N D M wf).start (ix2 e d') idx 0 + ((0 : ℕ) : ℤ)).toNat = n.val
        rw [hs, hx]; omega
      | ⟨1, _⟩ => show ((0 : ℤ) + ((d'.val : ℕ) : ℤ)).toNat = d'.val; omega
  · next h =>
    constructor
    · intro hf; exact absurd hf (by simp)
    · rintro ⟨rfl, hx⟩
      exfalso; apply h
      intro a
      match a with
      | ⟨0, _⟩ =>
        show 0 ≤ (nodeScatterDims N D M wf).start (ix2 e d') idx 0 + ((0 : ℕ) : ℤ)
          ∧ (nodeScatterDims N D M wf).start (ix2 e d') idx 0 + ((0 : ℕ) : ℤ) < ((N : ℕ) : ℤ)
        rw [hs, hx]; have := n.isLt; omega
      | ⟨1, _⟩ =>
        show 0 ≤ (0 : ℤ) + ((d'.val : ℕ) : ℤ) ∧ (0 : ℤ) + ((d'.val : ℕ) : ℤ) < ((D : ℕ) : ℤ)
        have := d'.isLt; omega

/-- The accumulating row scatter read at `(n, d)`: the operand's entry plus the update entries `(e, d)` of the
    rows `e` whose index word names node `n`. -/
theorem hostScatterAdd_nodes_apply (x : (⟨2, ![N, D]⟩ : Shape).Idx → EReal) (idx : IVec ⟨2, ![M, 1]⟩ w)
    (upd : (⟨2, ![M, D]⟩ : Shape).Idx → EReal) (n : Fin N) (d : Fin D) :
    Ideal.hostScatterAdd (nodeScatterDims N D M wf) x idx upd (ix2 n d)
      = x (ix2 n d) + ∑ e : Fin M, if (idx (ix2 e (0 : Fin 1))).toInt = (n.val : ℤ) then upd (ix2 e d) else 0 := by
  unfold Ideal.hostScatterAdd
  refine congrArg (x (ix2 n d) + ·) ?_
  rw [← Finset.sum_filter]
  refine Finset.sum_nbij' (fun j => (j 0 : Fin M)) (fun e => ix2 e d) ?_ ?_ ?_ ?_ ?_
  · intro j hj
    have hj' := (Finset.mem_filter.mp hj).2
    rw [eq_ix2 j] at hj'
    exact Finset.mem_filter.mpr ⟨Finset.mem_univ _, ((resultIdx?_nodes wf _ _ idx n d).mp hj').2⟩
  · intro e he
    have he' := (Finset.mem_filter.mp he).2
    exact Finset.mem_filter.mpr ⟨Finset.mem_univ _, (resultIdx?_nodes wf e d idx n d).mpr ⟨rfl, he'⟩⟩
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact hjj.symm
  · intro e _; rfl
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact congrArg upd hjj

/-- The dimension numbers of a gather of whole rows of a node-by-feature array: a column of `M` start indices
    naming nodes, the result over (index, feature). -/
abbrev nodeGatherDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The node a start-index word names: read signed and clamped into `[0, N − 1]`. -/
def nodeOf (N : Nat) (hN : 0 < N) {w : Nat} (x : BitVec w) : Fin N := ⟨min x.toInt.toNat (N - 1), by omega⟩

/-- The row gather read at `(e, d)`: the operand at the row `idx[e]` names. -/
theorem gather_nodes_apply {α : Type} (hN : 0 < N)
    (wfg : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (nodeGatherDims N D M wfg) x idx (ix2 e d)
      = x (ix2 (nodeOf N hN (idx (ix2 e (0 : Fin 1)))) d) := by
  unfold Host.gather
  refine congrArg x (funext fun a => Fin.ext ?_)
  have hst : (nodeGatherDims N D M wfg).start (ix2 e d) idx 0 = min (idx (ix2 e (0 : Fin 1))).toInt.toNat (N - 1) := by
    unfold GatherDims.start
    rw [dif_pos (show (0 : Fin 2) ∈ (nodeGatherDims N D M wfg).startIndexMap from List.mem_singleton.mpr rfl)]
    have hsi : (nodeGatherDims N D M wfg).siIdx (ix2 e d) ⟨List.idxOf (0 : Fin 2) (nodeGatherDims N D M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  match a with
  | ⟨0, _⟩ =>
    show (nodeGatherDims N D M wfg).start (ix2 e d) idx 0 + (nodeGatherDims N D M wfg).batchCoord (ix2 e d) 0
      + (nodeGatherDims N D M wfg).offCoord (ix2 e d) 0 = min (idx (ix2 e (0 : Fin 1))).toInt.toNat (N - 1)
    have h2 : (nodeGatherDims N D M wfg).batchCoord (ix2 e d) 0 = 0 := rfl
    have h3 : (nodeGatherDims N D M wfg).offCoord (ix2 e d) 0 = 0 := rfl
    rw [hst, h2, h3]; rfl
  | ⟨1, _⟩ =>
    show (nodeGatherDims N D M wfg).start (ix2 e d) idx 1 + (nodeGatherDims N D M wfg).batchCoord (ix2 e d) 1
      + (nodeGatherDims N D M wfg).offCoord (ix2 e d) 1 = d.val
    have h1 : (nodeGatherDims N D M wfg).start (ix2 e d) idx 1 = 0 := rfl
    have h2 : (nodeGatherDims N D M wfg).batchCoord (ix2 e d) 1 = 0 := rfl
    have h3 : (nodeGatherDims N D M wfg).offCoord (ix2 e d) 1 = d.val := rfl
    rw [h1, h2, h3]; omega

end Cert.LibNodes
end
-- ==== Proof.LibGather1.lean ====
/-
  Entries of a vector gathered through a column of index words, read at an index.

  The operand is a vector of `N` entries; the indices are a column of `M` words, each naming an entry; the result
  is a vector of `M` entries. Result entry `e` is the operand's entry `idx[e]`, the word read signed and clamped
  into `[0, N − 1]`.
-/
import Idealize.ShloMosaic.PureOps.Ideal
import Idealize.ShloMosaic.Lib.ValueIdx

noncomputable section
namespace Cert.LibGather1

open Idealize.ShloMosaic Idealize.ShloMosaic.ValueIdx

/-- The dimension numbers of a gather of single entries of a vector: a column of `M` start indices, the one
    operand axis collapsed, no window axis in the result. -/
abbrev entryGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The entry a start-index word names: read signed and clamped into `[0, N − 1]`. -/
def entryOf (N : Nat) (hN : 0 < N) {w : Nat} (x : BitVec w) : Fin N := ⟨min x.toInt.toNat (N - 1), by omega⟩

/-- The entry gather read at `e`: the operand at the entry `idx[e]` names. -/
theorem gather_entries_apply {α : Type} {N M w : Nat} (hN : 0 < N)
    (wfg : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryGatherDims N M wfg) x idx (ix1 e) = x (ix1 (entryOf N hN (idx (ix2 e (0 : Fin 1))))) := by
  unfold Host.gather
  refine congrArg x (funext fun a => Fin.ext ?_)
  obtain rfl : a = 0 := Subsingleton.elim _ _
  have hst : (entryGatherDims N M wfg).start (ix1 e) idx 0 = min (idx (ix2 e (0 : Fin 1))).toInt.toNat (N - 1) := by
    unfold GatherDims.start
    rw [dif_pos (show (0 : Fin 1) ∈ (entryGatherDims N M wfg).startIndexMap from List.mem_singleton.mpr rfl)]
    have hsi : (entryGatherDims N M wfg).siIdx (ix1 e) ⟨List.idxOf (0 : Fin 1) (entryGatherDims N M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  show (entryGatherDims N M wfg).start (ix1 e) idx 0 + (entryGatherDims N M wfg).batchCoord (ix1 e) 0
    + (entryGatherDims N M wfg).offCoord (ix1 e) 0 = min (idx (ix2 e (0 : Fin 1))).toInt.toNat (N - 1)
  have h2 : (entryGatherDims N M wfg).batchCoord (ix1 e) 0 = 0 := rfl
  have h3 : (entryGatherDims N M wfg).offCoord (ix1 e) 0 = 0 := rfl
  rw [hst, h2, h3]; rfl

end Cert.LibGather1
end
-- ==== Proof.LibFactorSum.lean ====
/-
  The law that joins the two programs: a node's normalisation factor may be applied once, to the sum of the
  messages arriving at the node, instead of to each message.

  On the extended reals a factor distributes over a sum when it is a non-negative number other than +inf (a
  product with an infinity of either sign, or with zero, is then the same on both sides). The factor of node n
  is such a number: it is the reciprocal square root of a positive degree, or zero.
-/
import Idealize.ShloMosaic.PureOps.Ideal

noncomputable section
open scoped BigOperators
namespace Cert.LibFactorSum

/-- A non-negative factor other than +inf distributes over a finite sum of extended reals. -/
theorem mul_sum_of_nonneg {ι : Type} (s : Finset ι) (d : EReal) (hd : 0 ≤ d) (hd' : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top hd hd', ih]

/-- The sum of the messages reaching one node, scaled once by the node's factor d, is the sum of the messages
    each scaled by the sender's factor and by the receiver's factor, when the receiver's factor of every
    message that does reach the node is d. -/
theorem factor_out {M : Nat} (d : EReal) (hd : 0 ≤ d) (hd' : d ≠ ⊤) (c : Fin M → Prop) [DecidablePred c]
    (a s t : Fin M → EReal) (ht : ∀ e, c e → t e = d) :
    d * (0 + ∑ e : Fin M, if c e then a e * s e else 0)
      = 0 + ∑ e : Fin M, if c e then a e * (s e * t e) else 0 := by
  rw [zero_add, zero_add, mul_sum_of_nonneg _ d hd hd']
  refine Finset.sum_congr rfl fun e _ => ?_
  by_cases h : c e
  · rw [if_pos h, if_pos h, ht e h, mul_comm (s e) d, ← mul_assoc (a e), mul_comm (a e) d, mul_assoc]
  · rw [if_neg h, if_neg h, mul_zero]

/-- The reciprocal square root of a positive extended real is a non-negative number other than +inf. -/
theorem rsqrt_nonneg_ne_top (x : EReal) (hx : 0 < x) : 0 ≤ Idealize.ShloMosaic.Ideal.rsqrt x ∧ Idealize.ShloMosaic.Ideal.rsqrt x ≠ ⊤ := by
  induction x using EReal.rec with
  | bot => exact absurd hx (by simp)
  | top =>
    have h : Idealize.ShloMosaic.Ideal.rsqrt (⊤ : EReal) = 0 := rfl
    rw [h]; exact ⟨le_refl 0, EReal.zero_ne_top⟩
  | coe r =>
    have hr : 0 < r := by exact_mod_cast hx
    have h : Idealize.ShloMosaic.Ideal.rsqrt (r : EReal)
        = if r < 0 then ⊥ else if r = 0 then ⊤ else (((Real.sqrt r)⁻¹ : ℝ) : EReal) := rfl
    rw [h, if_neg (not_lt.mpr hr.le), if_neg hr.ne']
    exact ⟨by exact_mod_cast (inv_nonneg.mpr (Real.sqrt_nonneg r)), EReal.coe_ne_top _⟩

end Cert.LibFactorSum
end
-- ==== Proof.LayerLaw.lean ====
/-
  The law that joins the two programs, as an equation between two whole-array functions on the extended reals.

  One layer, read at node n and feature q. Write hit e n when the receiver word of edge e, read signed, is n,
  and src e for the node the sender word of edge e names (negatives counted from the end, then clamped).
  * One side: max(dv n · (0 + Σ_e [hit e n] Z(src e, q)) + b q, 0) with Z(p, q) = dv p · (X W)(p, q): each row
    of X W scaled by its own node's factor, moved along the edges, summed, and the sum scaled by the receiver's.
  * Other side: max((0 + Σ_e [hit e n] (X W)(src e, q) · (dv(src e) · dv(dst e))) + b q, 0): each message scaled
    by the factors of the two ends of its edge, then summed.
  When hit e n holds the receiver word lies in [0, N), so the wrap and the clamp leave it alone: dst e = n.
  A non-negative factor other than +inf distributes over any sum of extended reals, so the two sides agree;
  nothing about the entries of X and W is needed.
-/
import proofs.«155046_j60842506715384_2_alg».proof.Proof.Spec
import proofs.«155046_j60842506715384_2_alg».proof.Proof.LibNodeScatter
import proofs.«155046_j60842506715384_2_alg».proof.Proof.LibGather1
import proofs.«155046_j60842506715384_2_alg».proof.Proof.LibHostRead
import proofs.«155046_j60842506715384_2_alg».proof.Proof.LibFactorSum

noncomputable section

open scoped BigOperators

namespace Cert.Gcn

open Idealize.ShloMosaic Idealize.ShloMosaic.ValueIdx

variable [Cert.KernelIdeal.Facts] [Cert.ReferenceIdeal.Facts]

/-! ## Pointwise readings -/

/-- The all-zero array reads 0 everywhere. -/
theorem zeros_apply (t : Shape) (h : Cert.KernelIdeal.S_.BroadcastsInDim t ![]) (i : t.Idx) :
    broadcastInDim t ![] h (constant (F := Ideal) Cert.KernelIdeal.S_ .f32 0x00000000#32) i = 0 := by
  rw [Cert.LibHostRead.bid_scalar_apply]
  simp only [constant, Ideal.ofBits_def, Ideal.ofBits_zero_f32]

/-- An entrywise product read at an index. -/
theorem mulf_apply {t : Shape} (A B : F32 t) (i : t.Idx) :
    mulf (F := Ideal) (φ := .f32) A B i = A i * B i := rfl

/-- max(A · S + B, Z) read at an index. -/
theorem relu_scaled_apply {t : Shape} (A S B Z : F32 t) (i : t.Idx) :
    maximumf (F := Ideal) (φ := .f32) (addf (mulf A S) B) Z i = max (A i * S i + B i) (Z i) := rfl

/-- max(S + B, Z) read at an index. -/
theorem relu_sum_apply {t : Shape} (S B Z : F32 t) (i : t.Idx) :
    maximumf (F := Ideal) (φ := .f32) (addf S B) Z i = max (S i + B i) (Z i) := rfl

/-! ## The factor of a node is a non-negative number other than +inf -/

/-- Where the comparison "x > y" answers 1, y < x. -/
theorem lt_of_cmp_ogt (x y : EReal) (h : Ideal.cmp .ogt x y = 1) : y < x := by
  unfold Ideal.cmp at h
  simp only at h
  by_contra hn
  rw [decide_eq_false hn] at h
  exact absurd h (by decide)

/-- "1/sqrt(max(g, e)) where g > 0, and 0 elsewhere" is a non-negative number other than +inf, whatever g and e are. -/
theorem select_rsqrt_ok (g e z : Ideal .f32) (hz : z = 0) :
    0 ≤ Scalar.select (FloatOps.cmpf .ogt g z) (FloatOps.hostUnary .rsqrt (FloatOps.maximumf g e)) z
      ∧ Scalar.select (FloatOps.cmpf .ogt g z) (FloatOps.hostUnary .rsqrt (FloatOps.maximumf g e)) z ≠ ⊤ := by
  subst hz
  rw [Ideal.cmpf_def, Ideal.hostUnary_rsqrt_def, Ideal.maximumf_def]
  unfold Scalar.select
  split
  · next h => exact Cert.LibFactorSum.rsqrt_nonneg_ne_top _ (lt_max_of_lt_left (lt_of_cmp_ogt g 0 h))
  · exact ⟨le_refl 0, EReal.zero_ne_top⟩

/-- The factor as a function of the degree array. -/
def dinvOf (deg : F32 Cert.KernelIdeal.S100000) : F32 Cert.KernelIdeal.S100000 :=
  select (cmpf .ogt deg (broadcastInDim Cert.KernelIdeal.S100000 ![] Cert.KernelIdeal.Facts₀.bcast_S_S100000 (constant (F := Ideal) Cert.KernelIdeal.S_ .f32 0x00000000#32))) (Host.rsqrt (F := Ideal) (maximumf deg (broadcastInDim Cert.KernelIdeal.S100000 ![] Cert.KernelIdeal.Facts₀.bcast_S_S100000 (constant (F := Ideal) Cert.KernelIdeal.S_ .f32 0x2B8CBCCC#32)))) (broadcastInDim Cert.KernelIdeal.S100000 ![] Cert.KernelIdeal.Facts₀.bcast_S_S100000 (constant (F := Ideal) Cert.KernelIdeal.S_ .f32 0x00000000#32))

theorem Kdinv_eq (d : I32 Cert.KernelIdeal.S1700000) : Kdinv d = dinvOf (Kdeg d) := rfl

/-- Whatever the degrees are, the factor is a non-negative number other than +inf. -/
theorem dinvOf_ok (deg : F32 Cert.KernelIdeal.S100000) (n : Fin 100000) :
    0 ≤ dinvOf deg (ix1 n) ∧ dinvOf deg (ix1 n) ≠ ⊤ :=
  select_rsqrt_ok (deg (ix1 n)) _ _
    (zeros_apply Cert.KernelIdeal.S100000 Cert.KernelIdeal.Facts₀.bcast_S_S100000 (ix1 n))

/-- The factor is 1/sqrt of a positive number where the comparison "degree > 0" holds, and 0 elsewhere; the degree
    itself plays no part. -/
theorem dinv_ok (d : I32 Cert.KernelIdeal.S1700000) (n : Fin 100000) :
    0 ≤ Kdinv d (ix1 n) ∧ Kdinv d (ix1 n) ≠ ⊤ := by
  rw [Kdinv_eq]
  exact dinvOf_ok _ n

/-! ## Index words: an edge that reaches node n names n -/

/-- A word that reads, signed, as a node number is not negative. -/
theorem not_slt_zero_of_toInt (w : BitVec 32) (n : Fin 100000) (h : w.toInt = (n.val : ℤ)) :
    w.slt 0#32 = false := by
  rw [BitVec.slt, BitVec.toInt_zero, h]
  exact decide_eq_false (by omega)

/-- A word that reads, signed, as a node number names that node: the clamp into [0, N − 1] leaves it alone. -/
theorem nodeOf_of_toInt (w : BitVec 32) (n : Fin 100000) (h : w.toInt = (n.val : ℤ)) :
    Cert.LibNodes.nodeOf 100000 (by norm_num) w = n := by
  apply Fin.ext
  show min w.toInt.toNat (100000 - 1) = n.val
  rw [h]
  have := n.isLt
  omega

/-- The signed comparison of two words, as one bit. -/
theorem cmpi_slt_eq (x y : BitVec 32) : IntOp.cmpi .slt x y = BitVec.ofBool (x.slt y) := rfl

/-- Counting negatives from the end leaves alone a word that reads as a node number. -/
theorem Kwrap_of_hit (i : I32 Cert.KernelIdeal.S1700000) (e : Fin 1700000) (n : Fin 100000)
    (h : (i (ix1 e)).toInt = (n.val : ℤ)) : Kwrap i (ix1 e) = i (ix1 e) := by
  have hz : broadcastInDim Cert.KernelIdeal.S1700000 ![] Cert.KernelIdeal.Facts₀.bcast_S_S1700000
      (constantI Cert.KernelIdeal.S_ 32 0#32) (ix1 e) = 0#32 := Cert.LibHostRead.bid_scalar_apply _ _ _
  show Scalar.select (IntOp.cmpi .slt (i (ix1 e)) (broadcastInDim Cert.KernelIdeal.S1700000 ![]
    Cert.KernelIdeal.Facts₀.bcast_S_S1700000 (constantI Cert.KernelIdeal.S_ 32 0#32) (ix1 e))) _ (i (ix1 e)) = i (ix1 e)
  rw [hz, cmpi_slt_eq, not_slt_zero_of_toInt _ n h]
  exact if_neg (by decide)

/-- The node the word of edge e names: a negative word counted from the end, then read signed and clamped. -/
def nodeAt (i : I32 Cert.KernelIdeal.S1700000) (e : Fin 1700000) : Fin 100000 :=
  Cert.LibNodes.nodeOf 100000 (by norm_num) (Kwrap i (ix1 e))

/-- An edge whose word reads as node n names n. -/
theorem nodeAt_of_hit (i : I32 Cert.KernelIdeal.S1700000) (e : Fin 1700000) (n : Fin 100000)
    (h : (i (ix1 e)).toInt = (n.val : ℤ)) : nodeAt i e = n := by
  unfold nodeAt
  rw [Kwrap_of_hit i e n h]
  exact nodeOf_of_toInt _ n h

/-- A vector of index words as a column, read at an entry. -/
theorem Kcol_apply (i : I32 Cert.KernelIdeal.S1700000) (e : Fin 1700000) :
    Kcol i (ix2 e (0 : Fin 1)) = i (ix1 e) :=
  Cert.LibHostRead.bid_a_a1_apply _ _ _ _

/-! ## The row scatter-add and the row gather of the two programs, read at an index

Stated for arbitrary operands: which rows are selected depends on the index words alone. -/

theorem Kscatter_eq : Cert.KernelIdeal.scatter_S100000x128_S1700000x1_S1700000x128_1_0_0_1
    = Cert.LibNodes.nodeScatterDims 100000 128 1700000
        Cert.KernelIdeal.Facts₀.scatter_S100000x128_S1700000x1_S1700000x128_1_0_0_1_wf := rfl

theorem Kgather_eq : Cert.KernelIdeal.gather_S100000x128_S1700000x1_S1700000x128_1_0_n_n_0_1_1128
    = Cert.LibNodes.nodeGatherDims 100000 128 1700000
        Cert.KernelIdeal.Facts₀.gather_S100000x128_S1700000x1_S1700000x128_1_0_n_n_0_1_1128_wf := rfl

/-- Rows accumulated at the nodes their index words name, read at (n, q). -/
theorem Kscatter_apply (x : F32 Cert.KernelIdeal.S100000x128) (idx : I32 Cert.KernelIdeal.S1700000x1)
    (upd : F32 Cert.KernelIdeal.S1700000x128) (n : Fin 100000) (q : Fin 128) :
    Host.scatterAdd (F := Ideal) (φ := .f32) Cert.KernelIdeal.scatter_S100000x128_S1700000x1_S1700000x128_1_0_0_1 x idx upd (ix2 n q)
      = x (ix2 n q) + ∑ e : Fin 1700000, if (idx (ix2 e (0 : Fin 1))).toInt = (n.val : ℤ) then upd (ix2 e q) else 0 := by
  rw [Kscatter_eq]
  exact Cert.LibNodes.hostScatterAdd_nodes_apply _ x idx upd n q

/-- Rows gathered through a column of index words, read at (e, q). -/
theorem Kgather_apply (x : F32 Cert.KernelIdeal.S100000x128) (idx : I32 Cert.KernelIdeal.S1700000x1)
    (e : Fin 1700000) (q : Fin 128) :
    Host.gather Cert.KernelIdeal.gather_S100000x128_S1700000x1_S1700000x128_1_0_n_n_0_1_1128 x idx (ix2 e q)
      = x (ix2 (Cert.LibNodes.nodeOf 100000 (by norm_num) (idx (ix2 e (0 : Fin 1)))) q) := by
  rw [Kgather_eq]
  exact Cert.LibNodes.gather_nodes_apply (by norm_num) _ x idx e q

/-! ## Each side read at node n and feature q -/

/-- Entry (p, q) of the product X W. -/
def prodAt (X : F32 Cert.KernelIdeal.S100000x128) (W : F32 Cert.KernelIdeal.S128x128) (p : Fin 100000) (q : Fin 128) : EReal :=
  ∑ k : Fin 128, X (ix2 p k) * W (ix2 k q)

/-- The rest of a layer after Z, read at (n, q): the receiver's factor times the sum of the rows of Z that arrive,
    plus the bias, negatives cut off. -/
theorem Kpost_apply (s d : I32 Cert.KernelIdeal.S1700000) (dv : F32 Cert.KernelIdeal.S100000)
    (Z : F32 Cert.KernelIdeal.S100000x128) (b : F32 Cert.KernelIdeal.S128) (n : Fin 100000) (q : Fin 128) :
    Kpost s d dv Z b (ix2 n q)
      = max (dv (ix1 n) * (0 + ∑ e : Fin 1700000,
          if (d (ix1 e)).toInt = (n.val : ℤ) then Z (ix2 (nodeAt s e) q) else 0) + b (ix1 q)) 0 := by
  unfold Kpost
  rw [relu_scaled_apply, Kscatter_apply, zeros_apply, Cert.LibHostRead.bid_a1_ab_apply,
    Cert.LibHostRead.bid_a_a1_apply, Cert.LibHostRead.bid_1b_ab_apply, Cert.LibHostRead.bid_b_1b_apply]
  refine congrArg (fun t => max (dv (ix1 n) * (0 + t) + b (ix1 q)) 0) (Finset.sum_congr rfl fun e _ => ?_)
  rw [Kcol_apply, Kgather_apply, Kcol_apply]
  rfl

theorem Rscatter_eq : Cert.ReferenceIdeal.scatter_S100000x128_S1700000x1_S1700000x128_1_0_0_1
    = Cert.LibNodes.nodeScatterDims 100000 128 1700000
        Cert.ReferenceIdeal.Facts₀.scatter_S100000x128_S1700000x1_S1700000x128_1_0_0_1_wf := rfl

theorem Rgather_eq : Cert.ReferenceIdeal.gather_S100000x128_S1700000x1_S1700000x128_1_0_n_n_0_1_1128
    = Cert.LibNodes.nodeGatherDims 100000 128 1700000
        Cert.ReferenceIdeal.Facts₀.gather_S100000x128_S1700000x1_S1700000x128_1_0_n_n_0_1_1128_wf := rfl

theorem Rgather1_eq : Cert.ReferenceIdeal.gather_S100000_S1700000x1_S1700000_n_0_n_n_0_1_1
    = Cert.LibGather1.entryGatherDims 100000 1700000
        Cert.ReferenceIdeal.Facts₀.gather_S100000_S1700000x1_S1700000_n_0_n_n_0_1_1_wf := rfl

/-- The other program's row scatter-add, read at (n, q). -/
theorem Rscatter_apply (x : F32 Cert.KernelIdeal.S100000x128) (idx : I32 Cert.KernelIdeal.S1700000x1)
    (upd : F32 Cert.KernelIdeal.S1700000x128) (n : Fin 100000) (q : Fin 128) :
    Host.scatterAdd (F := Ideal) (φ := .f32) Cert.ReferenceIdeal.scatter_S100000x128_S1700000x1_S1700000x128_1_0_0_1 x idx upd (ix2 n q)
      = x (ix2 n q) + ∑ e : Fin 1700000, if (idx (ix2 e (0 : Fin 1))).toInt = (n.val : ℤ) then upd (ix2 e q) else 0 := by
  rw [Rscatter_eq]
  exact Cert.LibNodes.hostScatterAdd_nodes_apply _ x idx upd n q

/-- The other program's row gather, read at (e, q). -/
theorem Rgather_apply (x : F32 Cert.KernelIdeal.S100000x128) (idx : I32 Cert.KernelIdeal.S1700000x1)
    (e : Fin 1700000) (q : Fin 128) :
    Host.gather Cert.ReferenceIdeal.gather_S100000x128_S1700000x1_S1700000x128_1_0_n_n_0_1_1128 x idx (ix2 e q)
      = x (ix2 (Cert.LibNodes.nodeOf 100000 (by norm_num) (idx (ix2 e (0 : Fin 1)))) q) := by
  rw [Rgather_eq]
  exact Cert.LibNodes.gather_nodes_apply (by norm_num) _ x idx e q

/-- Entries of a vector gathered through a column of index words, read at e. -/
theorem Rgather1_apply (x : F32 Cert.KernelIdeal.S100000) (idx : I32 Cert.KernelIdeal.S1700000x1) (e : Fin 1700000) :
    Host.gather Cert.ReferenceIdeal.gather_S100000_S1700000x1_S1700000_n_0_n_n_0_1_1 x idx (ix1 e)
      = x (ix1 (Cert.LibNodes.nodeOf 100000 (by norm_num) (idx (ix2 e (0 : Fin 1))))) := by
  rw [Rgather1_eq]
  exact Cert.LibGather1.gather_entries_apply (by norm_num) _ x idx e

/-- The reference's product of X and W is a plain rows-by-columns product. -/
theorem dot_plain : Cert.LibHostRead.PlainDot (M := 100000) (K := 128) (N := 128)
    Cert.ReferenceIdeal.dot_S100000x128_S128x128_S100000x128_1_0_0_1_n_n where
  hr := rfl
  hs := rfl
  hl0 := fun _ _ => rfl
  hl1 := fun _ _ => rfl
  hr0 := fun _ _ => rfl
  hr1 := fun _ _ => rfl

/-- The product X W read at (p, q). -/
theorem Rdot_apply (X : F32 Cert.KernelIdeal.S100000x128) (W : F32 Cert.KernelIdeal.S128x128) (p : Fin 100000) (q : Fin 128) :
    Host.dotGeneral (F := Ideal) (φ₁ := .f32) (φ₂ := .f32) Cert.ReferenceIdeal.dot_S100000x128_S128x128_S100000x128_1_0_0_1_n_n none X W (ix2 p q)
      = prodAt X W p q :=
  Cert.LibHostRead.dotGeneral_plain_apply _ dot_plain X W p q

/-- Both programs count negatives from the end the same way. -/
theorem Rwrap_eq (i : I32 Cert.KernelIdeal.S1700000) : Rwrap i = Kwrap i := rfl

/-- The column of words on the reference side, read at an entry. -/
theorem Rcol_apply (i : I32 Cert.KernelIdeal.S1700000) (e : Fin 1700000) :
    Rcol i (ix2 e (0 : Fin 1)) = i (ix1 e) :=
  Cert.LibHostRead.bid_a_a1_apply _ _ _ _

/-- The other layer read at (n, q): the sum of the rows of X W that arrive, each scaled by the product of the factors
    of the two ends of its edge, plus the bias, negatives cut off. -/
theorem RL_apply (s d : I32 Cert.KernelIdeal.S1700000) (dv : F32 Cert.KernelIdeal.S100000)
    (X : F32 Cert.KernelIdeal.S100000x128) (W : F32 Cert.KernelIdeal.S128x128) (b : F32 Cert.KernelIdeal.S128)
    (n : Fin 100000) (q : Fin 128) :
    RL s d dv X W b (ix2 n q)
      = max ((0 + ∑ e : Fin 1700000,
          if (d (ix1 e)).toInt = (n.val : ℤ)
            then prodAt X W (nodeAt s e) q * (dv (ix1 (nodeAt s e)) * dv (ix1 (nodeAt d e))) else 0) + b (ix1 q)) 0 := by
  unfold RL
  rw [relu_sum_apply, Rscatter_apply, zeros_apply, Cert.LibHostRead.bid_1b_ab_apply, Cert.LibHostRead.bid_b_1b_apply]
  refine congrArg (fun t => max ((0 + t) + b (ix1 q)) 0) (Finset.sum_congr rfl fun e _ => ?_)
  rw [Rcol_apply, mulf_apply, Rgather_apply, Rcol_apply, Rdot_apply, Cert.LibHostRead.bid_a1_ab_apply,
    Cert.LibHostRead.bid_a_a1_apply, mulf_apply, Rgather1_apply, Rgather1_apply, Rcol_apply, Rcol_apply,
    Rwrap_eq, Rwrap_eq]
  rfl

/-! ## The join -/

/-- The scaled product in terms of the full-width operands: row p of X W times the factor of node p. -/
theorem Kscaled_eq (dv : F32 Cert.KernelIdeal.S100000)
    (X : F32 Cert.KernelIdeal.S100000x128) (W : F32 Cert.KernelIdeal.S128x128)
    (X' : B16 Cert.KernelIdeal.S100000x128) (W' : B16 Cert.KernelIdeal.S128x128) (dc : F32 Cert.KernelIdeal.S100000x1)
    (hX : ∀ i, X' i = X i) (hW : ∀ i, W' i = W i) (hdc : ∀ n : Fin 100000, dc (ix2 n (0 : Fin 1)) = dv (ix1 n))
    (p : Fin 100000) (q : Fin 128) :
    Kscaled X' W' dc (ix2 p q) = prodAt X W p q * dv (ix1 p) := by
  rw [Kscaled_apply]
  unfold scaledAt prodAt
  rw [hdc, mul_comm]
  refine congrArg (· * dv (ix1 p)) (Finset.sum_congr rfl fun k _ => ?_)
  rw [hX, hW]

theorem layer_eq (s d : I32 Cert.KernelIdeal.S1700000) (dv : F32 Cert.KernelIdeal.S100000)
    (hdv : ∀ n : Fin 100000, 0 ≤ dv (ix1 n) ∧ dv (ix1 n) ≠ ⊤)
    (X : F32 Cert.KernelIdeal.S100000x128) (W : F32 Cert.KernelIdeal.S128x128) (b : F32 Cert.KernelIdeal.S128)
    (X' : B16 Cert.KernelIdeal.S100000x128) (W' : B16 Cert.KernelIdeal.S128x128) (dc : F32 Cert.KernelIdeal.S100000x1)
    (hX : ∀ i, X' i = X i) (hW : ∀ i, W' i = W i) (hdc : ∀ n : Fin 100000, dc (ix2 n (0 : Fin 1)) = dv (ix1 n)) :
    Kpost s d dv (Kscaled X' W' dc) b = RL s d dv X W b := by
  funext j
  obtain ⟨n, q, rfl⟩ : ∃ (n : Fin 100000) (q : Fin 128), j = ix2 n q := ⟨j 0, j 1, eq_ix2 j⟩
  rw [Kpost_apply, RL_apply]
  refine congrArg (fun t => max (t + b (ix1 q)) 0) ?_
  have hL : (∑ e : Fin 1700000, if (d (ix1 e)).toInt = (n.val : ℤ) then Kscaled X' W' dc (ix2 (nodeAt s e) q) else 0)
      = ∑ e : Fin 1700000, if (d (ix1 e)).toInt = (n.val : ℤ) then prodAt X W (nodeAt s e) q * dv (ix1 (nodeAt s e)) else 0 :=
    Finset.sum_congr rfl fun e _ => by rw [Kscaled_eq dv X W X' W' dc hX hW hdc]
  rw [hL]
  exact Cert.LibFactorSum.factor_out (M := 1700000) (dv (ix1 n)) (hdv n).1 (hdv n).2
    (fun e => (d (ix1 e)).toInt = (n.val : ℤ)) (fun e => prodAt X W (nodeAt s e) q)
    (fun e => dv (ix1 (nodeAt s e))) (fun e => dv (ix1 (nodeAt d e)))
    (fun e he => by rw [nodeAt_of_hit d e n he])

end Cert.Gcn

end
-- ==== Proof.RefValue.lean ====
/-
  The reference program's result, read as the composition of the named pieces: two layers of the
  edge-scaled form (each moves the rows of X W along the edges, scales a row by the product of the factors of
  the edge's two ends, sums at the receivers, adds the bias and cuts off negatives), then the per-graph
  mean and the last affine map. The composed term of the run and the composition of the named pieces are
  the same term once the names are unfolded; the shape and dimension records of the two programs are the
  same literals, and their side conditions are proofs.
-/
import proofs.«155046_j60842506715384_2_alg».proof.Proof.RefRun
import proofs.«155046_j60842506715384_2_alg».proof.Proof.Spec
import proofs.«155046_j60842506715384_2_alg».proof.Proof.Gen.KernelIdeal

noncomputable section

namespace Cert.Gcn

open Idealize.ShloMosaic Idealize.ShloMosaic.ValueIdx Idealize.ShloMosaic.TcCoe Idealize.SL.Sem

set_option maxRecDepth 8192 in
set_option maxHeartbeats 4000000 in
/-- The reference's result is the tail applied to two edge-scaled layers over the sender and receiver vectors
    and the receivers' normalisation factors. -/
theorem ref_value (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v108 (F := Ideal) m' c
      = Ktail (RL (Ksrc (m' ((c.tc : Thread Cert.ReferenceIdeal.nD Cert.ReferenceIdeal.τ).loc Cert.ReferenceIdeal.main_arg1))) (Kdst (m' ((c.tc : Thread Cert.ReferenceIdeal.nD Cert.ReferenceIdeal.τ).loc Cert.ReferenceIdeal.main_arg1))) (Kdinv (Kdst (m' ((c.tc : Thread Cert.ReferenceIdeal.nD Cert.ReferenceIdeal.τ).loc Cert.ReferenceIdeal.main_arg1)))) (RL (Ksrc (m' ((c.tc : Thread Cert.ReferenceIdeal.nD Cert.ReferenceIdeal.τ).loc Cert.ReferenceIdeal.main_arg1))) (Kdst (m' ((c.tc : Thread Cert.ReferenceIdeal.nD Cert.ReferenceIdeal.τ).loc Cert.ReferenceIdeal.main_arg1))) (Kdinv (Kdst (m' ((c.tc : Thread Cert.ReferenceIdeal.nD Cert.ReferenceIdeal.τ).loc Cert.ReferenceIdeal.main_arg1)))) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) := by
  unfold Cert.ReferenceIdeal.ValueP.res_main_v108 Ktail RL Ksrc Kdst Kdinv Kdeg Kcol Rcol Rwrap
  rfl

end Cert.Gcn

end
-- ==== Proof.lean ====
/-
  Two graph-convolution layers, a mean over each graph and an affine map, computed two ways, give the same
  array on the extended reals.

  The one program scales row i of X W by the normalisation factor of node i inside a tiled matrix product,
  moves the scaled rows along the edges, sums what arrives at each node and scales the sum by the receiver's
  factor; the other moves the rows of X W along the edges, scales each by the product of its two ends'
  factors, and sums. A node's factor is 0 or the reciprocal square root of a positive number, so it is a
  non-negative number other than +inf, and such a factor distributes over any finite sum of extended reals:
  the two layers agree whatever the features are, and no finiteness of the inputs is used. The frames of the
  two tiled programs are the generated ones; the reference's frame is its run with the result dropped; the
  pass that idealised the kernel rewrote nothing, so there is nothing to preserve.
-/
import proofs.«155046_j60842506715384_2_alg».proof.Defs
import proofs.«155046_j60842506715384_2_alg».proof.Proof.Gen.Kernel
import proofs.«155046_j60842506715384_2_alg».proof.Proof.Gen.Kernel.Skeleton
import proofs.«155046_j60842506715384_2_alg».proof.Proof.Gen.Kernel.Launch
import proofs.«155046_j60842506715384_2_alg».proof.Proof.Gen.Kernel.Points
import proofs.«155046_j60842506715384_2_alg».proof.Proof.Gen.Kernel.Frame
import proofs.«155046_j60842506715384_2_alg».proof.Proof.Gen.KernelIdeal
import proofs.«155046_j60842506715384_2_alg».proof.Proof.Gen.KernelIdeal.Skeleton
import proofs.«155046_j60842506715384_2_alg».proof.Proof.Gen.KernelIdeal.Launch
import proofs.«155046_j60842506715384_2_alg».proof.Proof.Gen.KernelIdeal.Points
import proofs.«155046_j60842506715384_2_alg».proof.Proof.Gen.KernelIdeal.Frame
import proofs.«155046_j60842506715384_2_alg».proof.Proof.Gen.ReferenceIdeal
import proofs.«155046_j60842506715384_2_alg».proof.Proof.Gen.Pre_finite_inputs
import proofs.«155046_j60842506715384_2_alg».proof.Proof.KernelRun
import proofs.«155046_j60842506715384_2_alg».proof.Proof.KernelValue
import proofs.«155046_j60842506715384_2_alg».proof.Proof.RegionValue
import proofs.«155046_j60842506715384_2_alg».proof.Proof.LayerLaw
import proofs.«155046_j60842506715384_2_alg».proof.Proof.RefRun
import proofs.«155046_j60842506715384_2_alg».proof.Proof.RefValue
import proofs.«155046_j60842506715384_2_alg».proof.Proof.LibKeepdims
import Idealize.ShloMosaic.Adequacy
import Idealize.ShloMosaic.Init

noncomputable section

namespace Cert.Proof

open Idealize.ShloMosaic Idealize.SL.Sem Idealize.ShloMosaic.TcCoe Idealize.ShloMosaic.ValueIdx
open Cert.Gcn

/-- The factor vector as a column reads, at row n, the factor of node n. -/
theorem column_apply (v : F32 Cert.KernelIdeal.S100000) (n : Fin 100000) :
    shapeCast Cert.KernelIdeal.S100000x1 v Cert.KernelIdeal.Facts₀.shapeCasts_S100000_S100000x1 (ix2 n (0 : Fin 1)) = v (ix1 n) :=
  Cert.LibKeepdims.shapeCast_a_a1_apply v _ n 0

/-- The first program's result is the second's arrangement of the two layers, on the same arrays. -/
theorem layers_eq (m : (ℓ : Loc Cert.KernelIdeal.nD Cert.KernelIdeal.τ Cert.KernelIdeal.sig) → Buf (Elt Ideal) ℓ) (c : Dev Cert.KernelIdeal.nD) :
    kOut m c = Ktail (RL (kS m c) (kD m c) (kV m c) (RL (kS m c) (kD m c) (kV m c)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) := by
  have h1 : kH1 m c = RL (kS m c) (kD m c) (kV m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) :=
    layer_eq (kS m c) (kD m c) (kV m c) (fun n => dinv_ok (kD m c) n) _ _ _ _ _ _ (fun _ => rfl) (fun _ => rfl) (column_apply (kV m c))
  have h2 : kH2 m c = RL (kS m c) (kD m c) (kV m c) (kH1 m c)
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) :=
    layer_eq (kS m c) (kD m c) (kV m c) (fun n => dinv_ok (kD m c) n) _ _ _ _ _ _ (fun _ => rfl) (fun _ => rfl) (column_apply (kV m c))
  show Ktail (kH2 m c) _ _ _ = _
  rw [h2, h1]

theorem frame_Kernel : Cert.frame_Kernel := fun m ρ _ => Cert.Kernel.Gen.frame m ρ

theorem frame_KernelIdeal : Cert.frame_KernelIdeal := fun m ρ _ => Cert.KernelIdeal.Gen.frame m ρ

theorem frame_ReferenceIdeal : Cert.frame_ReferenceIdeal := fun m ρ _ =>
  (θ_run Cert.ReferenceIdeal.defs _ _).mono (fun _ h c => (h c).2) (Cert.ReferenceIdeal.ValueP.run (F := Ideal) m ρ)

theorem algebraic : Cert.algebraic_KernelIdeal_ReferenceIdeal := fun m ρ m' ρ' _ hagree =>
  ⟨fun c => kOut m c,
   (θ_run Cert.KernelIdeal.defs _ _).mono
     (fun _ h c => ⟨((h c).1).trans (kernel_value m ρ c region0_value region1_value), (h c).2⟩)
     (Cert.KernelIdeal.Result.run_result (F := Ideal) m ρ),
   (θ_run Cert.ReferenceIdeal.defs _ _).mono
     (fun _ h c => ⟨by
        obtain ⟨e0, e1, e2, e3, e4, e5, e6, e7, e8⟩ := hagree c
        show _ = kOut m c
        rw [(h c).1, ref_value m' c, e0, e1, e2, e3, e4, e5, e6, e7, e8]
        exact (layers_eq m c).symm, (h c).2⟩)
     (Cert.ReferenceIdeal.ValueP.run (F := Ideal) m' ρ')⟩

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
